-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg9 : FVec F S256 .f32) (main_arg10 : FVec F S256x128 .f32) (main_arg11 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S256x128 .f32) (main_arg7 : FVec F S128 .f32) (main_arg8 : FVec F S256x256 .f32) (main_arg9 : FVec F S256 .f32) (main_arg10 : FVec F S256x128 .f32) (main_arg11 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S640000x128 .f32) (main_arg2 : IVec S640000 32) (main_arg3 : IVec S640000 32) (main_arg4 : FVec F S384x256 .f32) (main_arg5 : FVec F S256 .f32) (main_arg6 : FVec F S256x128 .f32) (main_arg7 : FVec F S128 .f32) (main_arg8 : FVec F S256x256 .f32) (main_arg9 : FVec F S256 .f32) (main_arg10 : FVec F S256x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x256 .f32 := Host.absf main_arg4
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S640000x128 : Shape := ⟨2, ![640000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩
abbrev S640000x1 : Shape := ⟨2, ![640000, 1]⟩
abbrev S128x256 : Shape := ⟨2, ![128, 256]⟩
abbrev S1x256 : Shape := ⟨2, ![1, 256]⟩
abbrev S1x128 : Shape := ⟨2, ![1, 128]⟩
abbrev S4000x128 : Shape := ⟨2, ![4000, 128]⟩
abbrev S4000x256 : Shape := ⟨2, ![4000, 256]⟩
abbrev S5000x128 : Shape := ⟨2, ![5000, 128]⟩
abbrev S5000x256 : Shape := ⟨2, ![5000, 256]⟩

abbrev nBuf : Space → Nat
  | .hbm => 53
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S128x256, .f32⟩
  | .hbm, ⟨31, _⟩ => ⟨S128x256, .bf16⟩
  | .hbm, ⟨32, _⟩ => ⟨S128x256, .f32⟩
  | .hbm, ⟨33, _⟩ => ⟨S128x256, .bf16⟩
  | .hbm, ⟨34, _⟩ => ⟨S128x256, .f32⟩
  | .hbm, ⟨35, _⟩ => ⟨S128x256, .bf16⟩
  | .hbm, ⟨36, _⟩ => ⟨S256x128, .bf16⟩
  | .hbm, ⟨37, _⟩ => ⟨S128x256, .f32⟩
  | .hbm, ⟨38, _⟩ => ⟨S128x256, .bf16⟩
  | .hbm, ⟨39, _⟩ => ⟨S128x256, .f32⟩
  | .hbm, ⟨40, _⟩ => ⟨S128x256, .bf16⟩
  | .hbm, ⟨41, _⟩ => ⟨S256x128, .bf16⟩
  | .hbm, ⟨42, _⟩ => ⟨S1x256, .f32⟩
  | .hbm, ⟨43, _⟩ => ⟨S1x128, .f32⟩
  | .hbm, ⟨44, _⟩ => ⟨S1x256, .f32⟩
  | .hbm, ⟨45, _⟩ => ⟨S1x128, .f32⟩
  | .hbm, ⟨46, _⟩ => ⟨S640000x128, .f32⟩
  | .hbm, ⟨47, _⟩ => ⟨S640000x128, .f32⟩
  | .hbm, ⟨48, _⟩ => ⟨S_, .f32⟩
  | .hbm, ⟨49, _⟩ => ⟨S50000x128, .f32⟩
  | .hbm, ⟨50, _⟩ => ⟨S640000x1, .i32⟩
  | .hbm, ⟨51, _⟩ => ⟨S50000x128, .f32⟩
  | .hbm, ⟨52, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S1x256, .f32⟩
  | .local _ .vmem, ⟨10, _⟩ => ⟨S256x128, .bf16⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x256, .bf16⟩
  | .local _ .vmem, ⟨21, _⟩ => ⟨S128x256, .bf16⟩
  | .local _ .vmem, ⟨22, _⟩ => ⟨S1x256, .f32⟩
  | .local _ .vmem, ⟨23, _⟩ => ⟨S256x128, .bf16⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_cst : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  slices_S384x256_S128x256_0_0 : S384x256.Slices ![0, 0] S128x256
  bitsLt_bf16_f32 : FTy.bits .bf16 < FTy.bits .f32
  slices_S384x256_S128x256_128_0 : S384x256.Slices ![128, 0] S128x256
  slices_S384x256_S128x256_256_0 : S384x256.Slices ![256, 0] S128x256
  slices_S256x256_S128x256_0_0 : S256x256.Slices ![0, 0] S128x256
  slices_S256x256_S128x256_128_0 : S256x256.Slices ![128, 0] S128x256
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x256_S5000x256 : S1x256.Broadcasts S5000x256
  broadcasts_S1x128_S5000x128 : S1x128.Broadcasts S5000x128
  gather_S50000x128_S640000x1_S640000x128_1_0_n_n_0_1_1128_wf : GatherDims.WF S50000x128 S640000x1 S640000x128 [1] [0] [] [0] [] 1 ![1, 128]
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  scatter_S50000x128_S640000x1_S640000x128_1_0_0_1_wf : ScatterDims.WF S50000x128 S640000x1 S640000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .f32 = 32 ∨ (Rect.block (s := S640000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .f32 = 32 ∨ (Rect.block (s := S640000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S640000x128.size a
  hwx0_2 : ∀ i : grid0.Coords, EltTy.bits .f32 = 32 ∨ (Rect.block (s := S640000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S640000x128.size a
  hwx0_9 : ∀ i : grid0.Coords, EltTy.bits .f32 = 32 ∨ (Rect.block (s := S640000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S640000x128.size a
  hwx0_10 : ∀ i : grid0.Coords, EltTy.bits .f32 = 32 ∨ (Rect.block (s := S640000x128) S4000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v6) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v30_1) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩
abbrev S640000x1 : Shape := ⟨2, ![640000, 1]⟩
abbrev S640000x384 : Shape := ⟨2, ![640000, 384]⟩
abbrev S640000x256 : Shape := ⟨2, ![640000, 256]⟩
abbrev S1x256 : Shape := ⟨2, ![1, 256]⟩
abbrev S1x128 : Shape := ⟨2, ![1, 128]⟩
abbrev S50000x256 : Shape := ⟨2, ![50000, 256]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x384, .f32⟩
  | .hbm, ⟨31, _⟩ => ⟨S640000x256, .f32⟩
  | .hbm, ⟨32, _⟩ => ⟨S1x256, .f32⟩
  | .hbm, ⟨33, _⟩ => ⟨S640000x256, .f32⟩
  | .hbm, ⟨34, _⟩ => ⟨S640000x256, .f32⟩
  | .hbm, ⟨35, _⟩ => ⟨S640000x256, .f32⟩
  | .hbm, ⟨36, _⟩ => ⟨S640000x256, .f32⟩
  | .hbm, ⟨37, _⟩ => ⟨S_, .f32⟩
  | .hbm, ⟨38, _⟩ => ⟨S640000x256, .f32⟩
  | .hbm, ⟨39, _⟩ => ⟨S640000x256, .f32⟩
  | .hbm, ⟨40, _⟩ => ⟨S640000x256, .f32⟩
  | .hbm, ⟨41, _⟩ => ⟨S_, .f32⟩
  | .hbm, ⟨42, _⟩ => ⟨S640000x256, .f32⟩
  | .hbm, ⟨43, _⟩ => ⟨S640000x256, .f32⟩
  | .hbm, ⟨44, _⟩ => ⟨S640000x256, .f32⟩
  | .hbm, ⟨45, _⟩ => ⟨S_, .f32⟩
  | .hbm, ⟨46, _⟩ => ⟨S640000x256, .f32⟩
  | .hbm, ⟨47, _⟩ => ⟨S640000x256, .f32⟩
  | .hbm, ⟨48, _⟩ => ⟨S_, .f32⟩
  | .hbm, ⟨49, _⟩ => ⟨S640000x256, .f32⟩
  | .hbm, ⟨50, _⟩ => ⟨S640000x256, .f32⟩
  | .hbm, ⟨51, _⟩ => ⟨S640000x256, .f32⟩
  | .hbm, ⟨52, _⟩ => ⟨S640000x128, .f32⟩
  | .hbm, ⟨53, _⟩ => ⟨S1x128, .f32⟩
  | .hbm, ⟨54, _⟩ => ⟨S640000x128, .f32⟩
  | .hbm, ⟨55, _⟩ => ⟨S640000x128, .f32⟩
  | .hbm, ⟨56, _⟩ => ⟨S_, .f32⟩
  | .hbm, ⟨57, _⟩ => ⟨S50000x128, .f32⟩
  | .hbm, ⟨58, _⟩ => ⟨S640000x1, .i32⟩
  | .hbm, ⟨59, _⟩ => ⟨S50000x128, .f32⟩
  | .hbm, ⟨60, _⟩ => ⟨S50000x256, .f32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S640000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  dot_S640000x384_S384x256_S640000x256_1_0_0_1_n_n_wf : DotDims.WF S640000x384 S384x256 S640000x256 [1] [0] [0] [1] [] []
  dot_S640000x256_S256x128_S640000x128_1_0_0_1_n_n_wf : DotDims.WF S640000x256 S256x128 S640000x128 [1] [0] [0] [1] [] []
  scatter_S50000x128_S640000x1_S640000x128_1_0_0_1_wf : ScatterDims.WF S50000x128 S640000x1 S640000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x384_S384x256_S640000x256_1_0_0_1_n_n : DotDims S640000x384 S384x256 S640000x256 where
  lhsContracting := [1]
  rhsContracting := [0]
  lhsNonContracting := [0]
  rhsNonContracting := [1]
  lhsBatch := []
  rhsBatch := []
  wf := dot_S640000x384_S384x256_S640000x256_1_0_0_1_n_n_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RefRun.lean ====
import proofs.«163415_j16320875725329_2_alg».proof.Proof.RefOps
import proofs.«163415_j16320875725329_2_alg».proof.Proof.RefRead
import Idealize.ShloMosaic.Lib.StableHlo.Run

/-!
The reference's run, read in three stretches.

The reference is 76 host operations in a row, so every weakly fair execution ends with each buffer at the fold of the
operations' results over the launch contents. The fold is read here in three stretches — up to the second gather; from
the joining of (sender row, receiver row, edge row) to the scatter-add; from the joining of (node row, aggregated
row) to the two results — each from ANY contents at its start, so that a joining operation meets its operands as
plain contents. Each stretch's result is the generated stage of the same name; no operation writes an argument.
-/

set_option maxRecDepth 8192

noncomputable section

namespace Cert.MP.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- Operations run one after another compose. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- The operations up to the second gather. -/
abbrev stA : List (HloOp τ sig (Elt Ideal)) := (ops (F := Ideal)).take 18
/-- From the joining of the three rows to the scatter-add. -/
abbrev stB : List (HloOp τ sig (Elt Ideal)) := ((ops (F := Ideal)).drop 18).take 30
/-- From the joining of the two rows to the results. -/
abbrev stC : List (HloOp τ sig (Elt Ideal)) := ((ops (F := Ideal)).drop 18).drop 30

theorem ops_cut : (ops (F := Ideal)) = stA ++ (stB ++ stC) := by
  unfold stA stB stC; rw [List.take_append_drop, List.take_append_drop]

/-- The whole fold is the three stretches' folds in turn. -/
theorem after_ops (L : Valuation τ sig (Elt Ideal)) :
    after (ops (F := Ideal)) L = after stC (after stB (after stA L)) :=
  (congrArg (fun l => after l L) ops_cut).trans (by rw [after_app, after_app])

theorem mem_stA : ∀ op ∈ stA, op ∈ (ops (F := Ideal)) := fun _ h => List.mem_of_mem_take h
theorem mem_stB : ∀ op ∈ stB, op ∈ (ops (F := Ideal)) := fun _ h => List.mem_of_mem_drop (List.mem_of_mem_take h)
theorem mem_stC : ∀ op ∈ stC, op ∈ (ops (F := Ideal)) := fun _ h => List.mem_of_mem_drop (List.mem_of_mem_drop h)

/-! ## No operation writes an argument -/

/-- @main's twelve arguments. -/
abbrev argRefs : List (Ref sig .tc) :=
  [main_arg0, main_arg1, main_arg2, main_arg3, main_arg4, main_arg5, main_arg6, main_arg7, main_arg8, main_arg9,
    main_arg10, main_arg11]

/-- Each operation writes one buffer, and it is no argument. -/
theorem writes_notArg : (ops (F := Ideal)).Forall fun op =>
    ∃ y : Ref sig .tc, op.writes = {Proc.devRef (τ := τ) .tc y} ∧ y ∉ argRefs := by
  simp only [ops, List.Forall, nullary_writes, unary_writes, binary_writes, ternary_writes, reshape_writes, nary_writes]
  repeat' apply And.intro
  all_goals exact ⟨_, rfl, by decide⟩

/-- So any stretch of them leaves every argument as it found it. -/
theorem keepArg (l : List (HloOp τ sig (Elt Ideal))) (hl : ∀ op ∈ l, op ∈ (ops (F := Ideal)))
    (V : Valuation τ sig (Elt Ideal)) (a : Ref sig .tc) (ha : a ∈ argRefs) :
    after l V (Proc.devRef .tc a) = V (Proc.devRef .tc a) :=
  after_of_forall_not_mem l V fun op hop hb => by
    obtain ⟨y, hy, hny⟩ := (List.forall_iff_forall_mem.mp writes_notArg) op (hl op hop)
    rw [hy, Finset.mem_singleton] at hb
    exact hny (Proc.devRef_injective _ hb ▸ ha)

/-! ## The stretches, read -/

/-- The senders' rows, gathered. -/
theorem readA_senders (W : Valuation τ sig (Elt Ideal)) :
    after stA W (Proc.devRef .tc main_v6)
      = val_main_v6 (F := Ideal) (W (Proc.devRef .tc main_arg0)) (W (Proc.devRef .tc main_arg2)) := by
  simp only [stA, ops, List.take_succ_cons, List.take_zero]
  after_results_simp <;> rfl

/-- The receivers' rows, gathered. -/
theorem readA_receivers (W : Valuation τ sig (Elt Ideal)) :
    after stA W (Proc.devRef .tc main_v13)
      = val_main_v13 (F := Ideal) (W (Proc.devRef .tc main_arg0)) (W (Proc.devRef .tc main_arg3)) := by
  simp only [stA, ops, List.take_succ_cons, List.take_zero]
  after_results_simp <;> rfl

/-- The messages, from contents that hold the gathered rows and the edge arguments. -/
theorem readB_msg (W : Valuation τ sig (Elt Ideal)) (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal))
    (h6 : W (Proc.devRef .tc main_v6) = val_main_v6 (F := Ideal) x0 x2) (h13 : W (Proc.devRef .tc main_v13) = val_main_v13 (F := Ideal) x0 x3)
    (h1 : W (Proc.devRef .tc main_arg1) = x1) (h4 : W (Proc.devRef .tc main_arg4) = x4) (h5 : W (Proc.devRef .tc main_arg5) = x5)
    (h6' : W (Proc.devRef .tc main_arg6) = x6) (h7 : W (Proc.devRef .tc main_arg7) = x7) :
    after stB W (Proc.devRef .tc main_v35) = val_main_v35 (F := Ideal) x0 x1 x2 x3 x4 x5 x6 x7 := by
  simp only [stB, ops, List.drop_succ_cons, List.drop_zero, List.take_succ_cons, List.take_zero]
  after_results_simp
  dsimp only [Matrix.cons_val_zero, Matrix.cons_val_one, Matrix.cons_val]
  rw [h6, h13, h1, h4, h5, h6', h7]
  rfl

/-- The messages summed into their receivers' rows, from the same contents. -/
theorem readB_agg (W : Valuation τ sig (Elt Ideal)) (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal))
    (h6 : W (Proc.devRef .tc main_v6) = val_main_v6 (F := Ideal) x0 x2) (h13 : W (Proc.devRef .tc main_v13) = val_main_v13 (F := Ideal) x0 x3)
    (h1 : W (Proc.devRef .tc main_arg1) = x1) (h4 : W (Proc.devRef .tc main_arg4) = x4) (h5 : W (Proc.devRef .tc main_arg5) = x5)
    (h6' : W (Proc.devRef .tc main_arg6) = x6) (h7 : W (Proc.devRef .tc main_arg7) = x7) (h3 : W (Proc.devRef .tc main_arg3) = x3) :
    after stB W (Proc.devRef .tc main_v38) = val_main_v38 (F := Ideal) x0 x1 x2 x3 x4 x5 x6 x7 := by
  simp only [stB, ops, List.drop_succ_cons, List.drop_zero, List.take_succ_cons, List.take_zero]
  after_results_simp
  dsimp only [Matrix.cons_val_zero, Matrix.cons_val_one, Matrix.cons_val]
  rw [h6, h13, h1, h4, h5, h6', h7, h3]
  rfl

/-- The updated nodes, from contents that hold the aggregated rows and the node arguments. -/
theorem readC_nodes (W : Valuation τ sig (Elt Ideal)) (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S256x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal))
    (h0 : W (Proc.devRef .tc main_arg0) = x0) (h38 : W (Proc.devRef .tc main_v38) = val_main_v38 (F := Ideal) x0 x1 x2 x3 x4 x5 x6 x7)
    (h8 : W (Proc.devRef .tc main_arg8) = x8) (h9 : W (Proc.devRef .tc main_arg9) = x9) (h10 : W (Proc.devRef .tc main_arg10) = x10)
    (h11 : W (Proc.devRef .tc main_arg11) = x11) :
    after stC W (Proc.devRef .tc main_v61) = val_main_v61 (F := Ideal) x0 x1 x2 x3 x4 x5 x6 x7 x8 x9 x10 x11 := by
  simp only [stC, ops, List.drop_succ_cons, List.drop_zero]
  after_results_simp
  rw [h0, h38, h8, h9, h10, h11]
  rfl

/-- The updated edges, from contents that hold the messages and the edge argument. -/
theorem readC_edges (W : Valuation τ sig (Elt Ideal)) (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal))
    (h1 : W (Proc.devRef .tc main_arg1) = x1) (h35 : W (Proc.devRef .tc main_v35) = val_main_v35 (F := Ideal) x0 x1 x2 x3 x4 x5 x6 x7) :
    after stC W (Proc.devRef .tc main_v62) = val_main_v62 (F := Ideal) x0 x1 x2 x3 x4 x5 x6 x7 := by
  simp only [stC, ops, List.drop_succ_cons, List.drop_zero]
  after_results_simp
  rw [h1, h35]
  rfl

/-! ## The run -/

/-- Every weakly fair execution of the reference terminates with the two results at their stages of the launch
    arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v61)
          = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v62)
          = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run (defs (F := Ideal)) _ _).mono (fun r h c => ?_)
    (run_seq scopedRefs_eq scopedSems_eq defs main (fun _ => ops) main_eq (fun _ => ops_sub) m ρ)
  -- the launch contents, and the contents after the first and the second stretch
  generalize hL : launchContents m c = L at h
  have hr : ∀ b : Ref sig .tc, r.2.mem ((c.tc : Thread nD τ).loc b)
      = after stC (after stB (after stA L)) (Proc.devRef .tc b) := fun b => by
    rw [← after_ops, ← hL]; exact h c b
  have kA := fun a ha => keepArg stA mem_stA L a ha
  have kB := fun a ha => keepArg stB mem_stB (after stA L) a ha
  have kC := fun a ha => keepArg stC mem_stC (after stB (after stA L)) a ha
  have kAB : ∀ a (ha : a ∈ argRefs), after stB (after stA L) (Proc.devRef .tc a) = L (Proc.devRef .tc a) :=
    fun a ha => (kB a ha).trans (kA a ha)
  have kABC : ∀ a (ha : a ∈ argRefs), r.2.mem ((c.tc : Thread nD τ).loc a) = L (Proc.devRef .tc a) :=
    fun a ha => (hr a).trans ((kC a ha).trans (kAB a ha))
  have hmsg := readB_msg (after stA L) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7))
    (readA_senders L |>.trans (by rfl)) (readA_receivers L |>.trans (by rfl))
    (kA main_arg1 (by decide)) (kA main_arg4 (by decide)) (kA main_arg5 (by decide)) (kA main_arg6 (by decide))
    (kA main_arg7 (by decide))
  have hagg := readB_agg (after stA L) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7))
    (readA_senders L |>.trans (by rfl)) (readA_receivers L |>.trans (by rfl))
    (kA main_arg1 (by decide)) (kA main_arg4 (by decide)) (kA main_arg5 (by decide)) (kA main_arg6 (by decide))
    (kA main_arg7 (by decide)) (kA main_arg3 (by decide))
  have hnodes := readC_nodes (after stB (after stA L)) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11))
    (kAB main_arg0 (by decide)) hagg (kAB main_arg8 (by decide)) (kAB main_arg9 (by decide))
    (kAB main_arg10 (by decide)) (kAB main_arg11 (by decide))
  have hedges := readC_edges (after stB (after stA L)) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7))
    (kAB main_arg1 (by decide)) hmsg
  subst hL
  exact ⟨(hr main_v61).trans hnodes, (hr main_v62).trans hedges,
    kABC main_arg0 (by decide), kABC main_arg1 (by decide), kABC main_arg2 (by decide), kABC main_arg3 (by decide),
    kABC main_arg4 (by decide), kABC main_arg5 (by decide), kABC main_arg6 (by decide), kABC main_arg7 (by decide),
    kABC main_arg8 (by decide), kABC main_arg9 (by decide), kABC main_arg10 (by decide), kABC main_arg11 (by decide)⟩

end Cert.MP.RefRun

end
-- ==== Proof.Rows.lean ====
import Idealize.ShloMosaic.PureOps.Ideal
import Idealize.ShloMosaic.Lib.ValueIdx
import Mathlib.Algebra.BigOperators.Fin

/-!
One message-passing layer, row by row, on the extended reals.

Every entry of the layer's two results depends on ONE row of each row-tiled input: an edge's message is a
two-layer perceptron of (sender row, receiver row, edge row), a node's update a two-layer perceptron of (node row,
aggregated row). So the layer is stated here over plain functions of row and column numbers, for ANY number of rows
`M`: the same function then describes a tile of rows and the whole array, and a tile of the whole array's value is
the value of the tile of rows.

The first layer is written with its contraction already cut into the operands' column ranges (three sums for an edge,
two for a node), each range against its own slab of the weight table; a program that contracts the joined row against
the whole table computes the same number, the sum over the joined range being the sum of the sums over its parts
(addition of extended reals is associative and commutative; nothing here needs finiteness).
-/

noncomputable section

namespace Cert.MP

open Idealize.ShloMosaic Idealize.ShloMosaic.ValueIdx

/-! ## The activation -/

/-- 0.044715 as the f32 word both programs carry. -/
def c1 : EReal := Ideal.ofBits .f32 0x3D372713#32
/-- The f32 word nearest √(2/π), as both programs carry it. -/
def c2 : EReal := Ideal.ofBits .f32 0x3F4C422A#32
/-- 1 as an f32 word. -/
def one : EReal := Ideal.ofBits .f32 0x3F800000#32
/-- 1/2 as an f32 word. -/
def half : EReal := Ideal.ofBits .f32 0x3F000000#32

/-- The tanh form of GELU: x · (½ · (1 + tanh (c₂ · (x + c₁ · x³)))), the cube grouped (x·x)·x. -/
def gelu (x : EReal) : EReal := x * (half * (one + Ideal.tanh (c2 * (x + c1 * (x * x * x)))))

/-- Grouping the cube as x·(x·x) gives the same value: multiplication of extended reals is commutative. -/
theorem gelu_cube_right (x : EReal) :
    x * (half * (one + Ideal.tanh (c2 * (x + c1 * (x * (x * x)))))) = gelu x := by
  unfold gelu; rw [mul_comm x (x * x)]

/-! ## One row through the perceptrons -/

/-- The hidden row of an edge: GELU of (sender · Ws + receiver · Wr) + edge · We + bias, column `k`. -/
def hidden3 (s r e : Fin 128 → EReal) (Ws Wr We : Fin 128 → Fin 256 → EReal) (b1 : Fin 256 → EReal)
    (k : Fin 256) : EReal :=
  gelu ((((∑ a : Fin 128, s a * Ws a k) + (∑ a : Fin 128, r a * Wr a k)) + (∑ a : Fin 128, e a * We a k)) + b1 k)

/-- The hidden row of a node: GELU of node · Wn + aggregate · Wg + bias, column `k`. -/
def hidden2 (n g : Fin 128 → EReal) (Wn Wg : Fin 128 → Fin 256 → EReal) (b1 : Fin 256 → EReal)
    (k : Fin 256) : EReal :=
  gelu (((∑ a : Fin 128, n a * Wn a k) + (∑ a : Fin 128, g a * Wg a k)) + b1 k)

/-- The second layer: hidden row · W2 + bias, column `q`. -/
def out2 (h : Fin 256 → EReal) (W2 : Fin 256 → Fin 128 → EReal) (b2 : Fin 128 → EReal) (q : Fin 128) : EReal :=
  (∑ k : Fin 256, h k * W2 k q) + b2 q

/-! ## The layer's three arrays, for any number of rows -/

/-- The message of edge `i`, column `q`. -/
def edgeMsg {M : Nat} (S R E : Fin M → Fin 128 → EReal) (Ws Wr We : Fin 128 → Fin 256 → EReal)
    (b1 : Fin 256 → EReal) (W2 : Fin 256 → Fin 128 → EReal) (b2 : Fin 128 → EReal)
    (i : Fin M) (q : Fin 128) : EReal :=
  out2 (hidden3 (S i) (R i) (E i) Ws Wr We b1) W2 b2 q

/-- The updated edge: the edge's own row plus its message. -/
def edgeOut {M : Nat} (S R E : Fin M → Fin 128 → EReal) (Ws Wr We : Fin 128 → Fin 256 → EReal)
    (b1 : Fin 256 → EReal) (W2 : Fin 256 → Fin 128 → EReal) (b2 : Fin 128 → EReal)
    (i : Fin M) (q : Fin 128) : EReal :=
  E i q + edgeMsg S R E Ws Wr We b1 W2 b2 i q

/-- The updated node: the node's own row plus the perceptron of (node row, aggregated row). -/
def nodeOut {M : Nat} (N G : Fin M → Fin 128 → EReal) (Wn Wg : Fin 128 → Fin 256 → EReal)
    (b1 : Fin 256 → EReal) (W2 : Fin 256 → Fin 128 → EReal) (b2 : Fin 128 → EReal)
    (i : Fin M) (q : Fin 128) : EReal :=
  N i q + out2 (hidden2 (N i) (G i) Wn Wg b1) W2 b2 q

/-- A row depends only on that row of each row-tiled input: rows `i` of one family and `i'` of another that
    agree give the same message. -/
theorem edgeMsg_row {M M' : Nat} (S R E : Fin M → Fin 128 → EReal) (S' R' E' : Fin M' → Fin 128 → EReal)
    (Ws Wr We : Fin 128 → Fin 256 → EReal) (b1 : Fin 256 → EReal) (W2 : Fin 256 → Fin 128 → EReal)
    (b2 : Fin 128 → EReal) (i : Fin M) (i' : Fin M') (hS : S i = S' i') (hR : R i = R' i') (hE : E i = E' i')
    (q : Fin 128) : edgeMsg S R E Ws Wr We b1 W2 b2 i q = edgeMsg S' R' E' Ws Wr We b1 W2 b2 i' q := by
  unfold edgeMsg; rw [hS, hR, hE]

theorem edgeOut_row {M M' : Nat} (S R E : Fin M → Fin 128 → EReal) (S' R' E' : Fin M' → Fin 128 → EReal)
    (Ws Wr We : Fin 128 → Fin 256 → EReal) (b1 : Fin 256 → EReal) (W2 : Fin 256 → Fin 128 → EReal)
    (b2 : Fin 128 → EReal) (i : Fin M) (i' : Fin M') (hS : S i = S' i') (hR : R i = R' i') (hE : E i = E' i')
    (q : Fin 128) : edgeOut S R E Ws Wr We b1 W2 b2 i q = edgeOut S' R' E' Ws Wr We b1 W2 b2 i' q := by
  unfold edgeOut; rw [edgeMsg_row S R E S' R' E' Ws Wr We b1 W2 b2 i i' hS hR hE q, hE]

theorem nodeOut_row {M M' : Nat} (N G : Fin M → Fin 128 → EReal) (N' G' : Fin M' → Fin 128 → EReal)
    (Wn Wg : Fin 128 → Fin 256 → EReal) (b1 : Fin 256 → EReal) (W2 : Fin 256 → Fin 128 → EReal)
    (b2 : Fin 128 → EReal) (i : Fin M) (i' : Fin M') (hN : N i = N' i') (hG : G i = G' i')
    (q : Fin 128) : nodeOut N G Wn Wg b1 W2 b2 i q = nodeOut N' G' Wn Wg b1 W2 b2 i' q := by
  unfold nodeOut; rw [hN, hG]

/-! ## Between arrays and functions of (row, column) -/

/-- A rank-2 array of extended reals as a function of its row and column. -/
def acc2 {m n : Nat} (x : (⟨2, ![m, n]⟩ : Shape).Idx → EReal) : Fin m → Fin n → EReal := fun i j => x (ix2 i j)

/-- The single row of a [1, n] array as a function of its column. -/
def row0 {n : Nat} (x : (⟨2, ![1, n]⟩ : Shape).Idx → EReal) : Fin n → EReal := fun j => x (ix2 (0 : Fin 1) j)

/-- A function of (row, column) as a rank-2 array. -/
def arr2 {m n : Nat} (f : Fin m → Fin n → EReal) : (⟨2, ![m, n]⟩ : Shape).Idx → EReal := fun i => f (i 0) (i 1)

theorem arr2_ix2 {m n : Nat} (f : Fin m → Fin n → EReal) (p : Fin m) (q : Fin n) : arr2 f (ix2 p q) = f p q := rfl

theorem acc2_arr2 {m n : Nat} (f : Fin m → Fin n → EReal) : acc2 (arr2 f) = f := rfl

/-- A length-n vector as a function of its position. -/
def vec {n : Nat} (b : (⟨1, ![n]⟩ : Shape).Idx → EReal) : Fin n → EReal := fun k => b (ix1 k)

/-- The 128 rows of a weight table that start at row `off`, as a function of (row within the slab, column). -/
def slab {K n : Nat} (W : (⟨2, ![K, n]⟩ : Shape).Idx → EReal) (off : Nat) (h : off + 128 ≤ K) :
    Fin 128 → Fin n → EReal := fun a k => W (ix2 ⟨off + a.val, by have := a.isLt; omega⟩ k)

/-! ## A contraction over a joined range is the sum of the contractions over its parts -/

/-- Three ranges of 128 laid end to end. -/
theorem sum_384 (f : Fin 384 → EReal) :
    ∑ a : Fin 384, f a
      = ((∑ a : Fin 128, f ⟨0 + a.val, by omega⟩) + (∑ a : Fin 128, f ⟨128 + a.val, by omega⟩))
        + (∑ a : Fin 128, f ⟨256 + a.val, by omega⟩) := by
  have h : ∀ g : Fin (128 + 128 + 128) → EReal, ∑ a, g a
      = ((∑ a : Fin 128, g (Fin.castAdd 128 (Fin.castAdd 128 a))) + (∑ a : Fin 128, g (Fin.castAdd 128 (Fin.natAdd 128 a))))
        + (∑ a : Fin 128, g (Fin.natAdd (128 + 128) a)) := fun g => by
    rw [Fin.sum_univ_add, Fin.sum_univ_add]
  refine (h f).trans ?_
  congr 2

/-- Two ranges of 128 laid end to end. -/
theorem sum_256 (f : Fin 256 → EReal) :
    ∑ a : Fin 256, f a = (∑ a : Fin 128, f ⟨0 + a.val, by omega⟩) + (∑ a : Fin 128, f ⟨128 + a.val, by omega⟩) := by
  have h : ∀ g : Fin (128 + 128) → EReal, ∑ a, g a
      = (∑ a : Fin 128, g (Fin.castAdd 128 a)) + (∑ a : Fin 128, g (Fin.natAdd 128 a)) := fun g => by
    rw [Fin.sum_univ_add]
  refine (h f).trans ?_
  congr 1

end Cert.MP

end
-- ==== Proof.KernelRun.lean ====
import proofs.«163415_j16320875725329_2_alg».proof.Proof.Gen.KernelIdeal.Frame

/-!
The idealized kernel's run with its two result buffers named.

@main is four segments: the host operations before the edge region, the edge region, the four host operations between
the regions (the scatter-add of the messages), the node region. The buffer contents after the last segment are a fold
through the four (the generated frame's `W4`); every weakly fair execution ends with each unscoped buffer at that
fold's contents. Read at the two result buffers: the updated nodes are the node region's output array after its last
point; the updated edges are the edge region's second output array after ITS last point, which neither the host
operations between the regions nor the node region write.
-/

set_option maxRecDepth 16384

noncomputable section

namespace Cert.MP.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the final fold's
    contents and the argument arrays as launched. -/
theorem run_named : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_v30_1) = W4 m ρ c (Proc.devRef .tc main_v30_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       h c _ (mem_uc main_v30_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

/-- The updated nodes: the node region's output array after its last grid point. -/
theorem result_nodes (c : Dev nD) :
    W4 m ρ c (Proc.devRef .tc main_v34) = (dat1 (V3 m ρ) c).arrAt 7 cfg1.N :=
  W4_arr m ρ c 7

/-- The updated edges: the edge region's second output array after its last grid point; the host operations between
    the regions write other buffers, and it is no window of the node region. -/
theorem result_edges (c : Dev nD) :
    W4 m ρ c (Proc.devRef .tc main_v30_1) = (dat0 (V1 m ρ) c).arrAt 10 cfg0.N :=
  calc W4 m ρ c (Proc.devRef .tc main_v30_1)
    _ = W3 m ρ c (Proc.devRef .tc main_v30_1) := W4_of_ne m ρ c main_v30_1 (by decide)
    _ = W2 m ρ c (Proc.devRef .tc main_v30_1) := StableHlo.after_of_forall_not_mem (b := Proc.devRef .tc main_v30_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 10 cfg0.N := W2_arr m ρ c 10

end Cert.MP.KernelRun

end
-- ==== Proof.EdgeTile.lean ====
import proofs.«163415_j16320875725329_2_alg».proof.Proof.Gen.KernelIdeal.Skeleton
import proofs.«163415_j16320875725329_2_alg».proof.Proof.Rows
import Idealize.ShloMosaic.Lib.ValueIdx
import Idealize.ShloMosaic.Lib.ValueLayout
import Idealize.ShloMosaic.Lib.Pipeline.Value
import Idealize.ShloMosaic.PureOps.Ideal.Laws

/-!
The edge kernel's body on one tile of 4000 rows, entry by entry: what it stores is the message-passing layer's edge
functions of the tile's own rows.
-/

noncomputable section

namespace Cert.MP.EdgeTile

open Idealize.ShloMosaic Idealize.ShloMosaic.ValueIdx Cert.KernelIdeal Cert.KernelIdeal.Gen Cert.MP

/-! ## A product into a zero accumulator, read at an entry

The contraction runs over one axis; its positions are the numbers below the axis's extent, and at position j the left
operand is read at (row, j), the right one at (j, column). -/

theorem lhs1_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs1_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs1_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs1_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- A [4000, 128] × [128, 256] product into a zero accumulator: entry (p, k) is the sum over the contracted position j of
    a (p, j) · b (j, k). -/
theorem mm1 (a : FVec Ideal S4000x128 .bf16) (b : FVec Ideal S128x256 .bf16) (p : Fin 4000) (k : Fin 256) :
    matmul (F := Ideal) dot_S4000x128_S128x256_S4000x256_1_0_0_1_n_n none a b (constant (F := Ideal) S4000x256 .f32 0x00000000#32) (ix2 p k)
      = ∑ j : Fin 128, a (ix2 p j) * b (ix2 j k) := by
  refine (Ideal.matmul_constant_zero_apply dot_S4000x128_S128x256_S4000x256_1_0_0_1_n_n none a b (ix2 p k)).trans ?_
  rw [← Equiv.sum_comp (ValueIdx.contrEquiv1 dot_S4000x128_S128x256_S4000x256_1_0_0_1_n_n 128 rfl rfl).symm]
  refine Finset.sum_congr rfl fun j _ => ?_
  have hj := ValueIdx.contrEquiv1_symm_val dot_S4000x128_S128x256_S4000x256_1_0_0_1_n_n 128 rfl rfl j
  have el : dot_S4000x128_S128x256_S4000x256_1_0_0_1_n_n.lhsIdx (ix2 p k) ((ValueIdx.contrEquiv1 dot_S4000x128_S128x256_S4000x256_1_0_0_1_n_n 128 rfl rfl).symm j) = ix2 p j := funext fun a => Fin.ext (by
    match a with
    | ⟨0, _⟩ => exact lhs1_0 _ _
    | ⟨1, _⟩ => exact (lhs1_1 _ _).trans hj)
  have er : dot_S4000x128_S128x256_S4000x256_1_0_0_1_n_n.rhsIdx (ix2 p k) ((ValueIdx.contrEquiv1 dot_S4000x128_S128x256_S4000x256_1_0_0_1_n_n 128 rfl rfl).symm j) = ix2 j k := funext fun a => Fin.ext (by
    match a with
    | ⟨0, _⟩ => exact (rhs1_0 _ _).trans hj
    | ⟨1, _⟩ => exact rhs1_1 _ _)
  rw [el, er]

theorem lhs2_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs2_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs2_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs2_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- A [4000, 256] × [256, 128] product into a zero accumulator: entry (p, k) is the sum over the contracted position j of
    a (p, j) · b (j, k). -/
theorem mm2 (a : FVec Ideal S4000x256 .bf16) (b : FVec Ideal S256x128 .bf16) (p : Fin 4000) (k : Fin 128) :
    matmul (F := Ideal) dot_S4000x256_S256x128_S4000x128_1_0_0_1_n_n none a b (constant (F := Ideal) S4000x128 .f32 0x00000000#32) (ix2 p k)
      = ∑ j : Fin 256, a (ix2 p j) * b (ix2 j k) := by
  refine (Ideal.matmul_constant_zero_apply dot_S4000x256_S256x128_S4000x128_1_0_0_1_n_n none a b (ix2 p k)).trans ?_
  rw [← Equiv.sum_comp (ValueIdx.contrEquiv1 dot_S4000x256_S256x128_S4000x128_1_0_0_1_n_n 256 rfl rfl).symm]
  refine Finset.sum_congr rfl fun j _ => ?_
  have hj := ValueIdx.contrEquiv1_symm_val dot_S4000x256_S256x128_S4000x128_1_0_0_1_n_n 256 rfl rfl j
  have el : dot_S4000x256_S256x128_S4000x128_1_0_0_1_n_n.lhsIdx (ix2 p k) ((ValueIdx.contrEquiv1 dot_S4000x256_S256x128_S4000x128_1_0_0_1_n_n 256 rfl rfl).symm j) = ix2 p j := funext fun a => Fin.ext (by
    match a with
    | ⟨0, _⟩ => exact lhs2_0 _ _
    | ⟨1, _⟩ => exact (lhs2_1 _ _).trans hj)
  have er : dot_S4000x256_S256x128_S4000x128_1_0_0_1_n_n.rhsIdx (ix2 p k) ((ValueIdx.contrEquiv1 dot_S4000x256_S256x128_S4000x128_1_0_0_1_n_n 256 rfl rfl).symm j) = ix2 j k := funext fun a => Fin.ext (by
    match a with
    | ⟨0, _⟩ => exact (rhs2_0 _ _).trans hj
    | ⟨1, _⟩ => exact rhs2_1 _ _)
  rw [el, er]

/-! ## The activation, entry by entry -/

/-- The body's activation chain — the cube grouped x·(x·x), the four splat constants, the hyperbolic tangent, and the
    narrowing to bf16, which changes nothing on the extended reals — is GELU of the entry. -/
theorem act_apply (v : FVec Ideal S4000x256 .f32) (i : S4000x256.Idx) :
    (truncf .bf16
      (mulf v
        (mulf (broadcast S4000x256 (Scalar.ofBits (F := Ideal) .f32 0x3F000000#32))
          (addf (broadcast S4000x256 (Scalar.ofBits (F := Ideal) .f32 0x3F800000#32))
            (tanh
              (mulf (broadcast S4000x256 (Scalar.ofBits (F := Ideal) .f32 0x3F4C422A#32))
                (addf v
                  (mulf (broadcast S4000x256 (Scalar.ofBits (F := Ideal) .f32 0x3D372713#32))
                    (mulf v (mulf v v)))))))))
      bitsLt_bf16_f32 : FVec Ideal S4000x256 .bf16) i = gelu (v i) :=
  gelu_cube_right (v i)

/-! ## The hidden tile -/

/-- A narrowed, same-shape-cast row operand against a same-shape-cast weight slab: the product's entry (p, k) is the
    row p of the operand against column k of the slab. -/
theorem mm1_rows (a : FVec Ideal S4000x128 .bf16) (b : FVec Ideal S128x256 .bf16)
    (x : Vec Ideal S4000x128 .f32) (w : Vec Ideal S128x256 .bf16) (ha : a = x) (hb : b = w) (p : Fin 4000) (k : Fin 256) :
    matmul (F := Ideal) dot_S4000x128_S128x256_S4000x256_1_0_0_1_n_n none a b
        (constant (F := Ideal) S4000x256 .f32 0x00000000#32) (ix2 p k)
      = ∑ j : Fin 128, acc2 x p j * acc2 w j k := by
  subst ha hb
  exact mm1 a b p k

/-- The hidden tile: entry (p, k) is the hidden row of row p of the tile, column k. -/
theorem hidden_tile (x0 x1 x2 : Vec Ideal S4000x128 .f32) (x3 x4 x5 : Vec Ideal S128x256 .bf16) (x6 : Vec Ideal S1x256 .f32)
    (p : Fin 4000) (k : Fin 256) :
    k0_pay3 (F := Ideal) x0 x1 x2 x3 x4 x5 x6 (ix2 p k)
      = hidden3 (acc2 x0 p) (acc2 x1 p) (acc2 x2 p) (acc2 x3) (acc2 x4) (acc2 x5) (row0 x6) k := by
  unfold k0_pay3
  refine (act_apply _ (ix2 p k)).trans ?_
  unfold hidden3
  refine congrArg gelu ?_
  refine congrArg₂ (· + ·) (congrArg₂ (· + ·) (congrArg₂ (· + ·) ?_ ?_) ?_) ?_
  · exact mm1_rows _ _ x0 x3 (shapeCast_self x0 _) (shapeCast_self x3 _) p k
  · exact mm1_rows _ _ x1 x4 (shapeCast_self x1 _) (shapeCast_self x4 _) p k
  · exact mm1_rows _ _ x2 x5 rfl (shapeCast_self x5 _) p k
  · exact (broadcastTo_1b_ab_apply _ _ p k).trans (congrFun (shapeCast_self x6 _) (ix2 (0 : Fin 1) k))

/-! ## The two stored tiles -/

/-- The second layer over any hidden tile h: entry (p, q) is row p of h against column q of the table, plus the bias. -/
theorem pay1_apply (h : FVec Ideal S4000x256 .bf16) (x7 : Vec Ideal S256x128 .bf16) (x8 : Vec Ideal S1x128 .f32)
    (p : Fin 4000) (q : Fin 128) :
    k0_pay1 (F := Ideal) h x7 x8 (ix2 p q) = (∑ k : Fin 256, h (ix2 p k) * acc2 x7 k q) + row0 x8 q := by
  unfold k0_pay1
  refine congrArg₂ (· + ·) ?_ ?_
  · refine (mm2 h _ p q).trans ?_
    exact Finset.sum_congr rfl fun k _ => congrArg (h (ix2 p k) * ·) (congrFun (shapeCast_self x7 _) (ix2 k q))
  · exact (broadcastTo_1b_ab_apply _ _ p q).trans (congrFun (shapeCast_self x8 _) (ix2 (0 : Fin 1) q))

/-- The message tile: entry (p, q) is the message of row p of the tile. -/
theorem msg_tile (x0 x1 x2 : Vec Ideal S4000x128 .f32) (x3 x4 x5 : Vec Ideal S128x256 .bf16) (x6 : Vec Ideal S1x256 .f32)
    (x7 : Vec Ideal S256x128 .bf16) (x8 : Vec Ideal S1x128 .f32) (p : Fin 4000) (q : Fin 128) :
    k0_pay1 (F := Ideal) (k0_pay3 (F := Ideal) x0 x1 x2 x3 x4 x5 x6) x7 x8 (ix2 p q)
      = edgeMsg (acc2 x0) (acc2 x1) (acc2 x2) (acc2 x3) (acc2 x4) (acc2 x5) (row0 x6) (acc2 x7) (row0 x8) p q := by
  refine (pay1_apply _ x7 x8 p q).trans ?_
  unfold edgeMsg out2
  refine congrArg (· + row0 x8 q) ?_
  exact Finset.sum_congr rfl fun k _ => congrArg (· * acc2 x7 k q) (hidden_tile x0 x1 x2 x3 x4 x5 x6 p k)

/-- The updated-edge tile: entry (p, q) is the edge's own entry plus the message. -/
theorem out_tile (x0 x1 x2 : Vec Ideal S4000x128 .f32) (x3 x4 x5 : Vec Ideal S128x256 .bf16) (x6 : Vec Ideal S1x256 .f32)
    (x7 : Vec Ideal S256x128 .bf16) (x8 : Vec Ideal S1x128 .f32) (p : Fin 4000) (q : Fin 128) :
    k0_pay2 (F := Ideal) x2 (k0_pay3 (F := Ideal) x0 x1 x2 x3 x4 x5 x6) x7 x8 (ix2 p q)
      = edgeOut (acc2 x0) (acc2 x1) (acc2 x2) (acc2 x3) (acc2 x4) (acc2 x5) (row0 x6) (acc2 x7) (row0 x8) p q := by
  unfold k0_pay2 edgeOut
  exact congrArg (x2 (ix2 p q) + ·) (msg_tile x0 x1 x2 x3 x4 x5 x6 x7 x8 p q)

end Cert.MP.EdgeTile

end
-- ==== Proof.EdgeRegion.lean ====
import proofs.«163415_j16320875725329_2_alg».proof.Proof.Gen.KernelIdeal.Frame
import proofs.«163415_j16320875725329_2_alg».proof.Proof.EdgeTile
import Idealize.ShloMosaic.Lib.Pipeline.Value

/-!
The edge region's two output arrays after its 160 grid points, from ANY buffer contents `V` at the region's entry:
point t writes rows 4000·t … 4000·t + 3999, those rows depend only on the same rows of the three row-tiled inputs, and
the 160 blocks tile the 640000 rows; so each output array is the layer's edge function of the entry arrays, whole.
-/

noncomputable section

namespace Cert.MP.EdgeRegion

open Idealize.ShloMosaic Idealize.ShloMosaic.TcCoe Idealize.ShloMosaic.ValueIdx Idealize.SL.Sem
open Cert.KernelIdeal Cert.KernelIdeal.Gen Cert.MP

/-! ## Where each window's block sits at a grid point -/

/-- The zero offsets of a whole-block load or store, as a constant function. -/
theorem zero_offsets : (![0, 0] : Fin 2 → Nat) = fun _ => 0 := funext fun a => by fin_cases a <;> rfl

/-- The grid has 160 points. -/
theorem point_lt (t : Fin cfg0.N) : t.val < 160 := Nat.lt_of_lt_of_eq t.isLt N_0

/-- The sender rows' window is at block (t, 0) at grid point t (decided over the 160 points). -/
theorem index_rows0 : ∀ t : Fin cfg0.N, win0_0.index t (0 : Fin 2) = t.val ∧ win0_0.index t (1 : Fin 2) = 0 :=
  (by decide +kernel : ∀ t : Fin grid0.N, _)

/-- The receiver rows' window is at block (t, 0) at grid point t (decided over the 160 points). -/
theorem index_rows1 : ∀ t : Fin cfg0.N, win0_1.index t (0 : Fin 2) = t.val ∧ win0_1.index t (1 : Fin 2) = 0 :=
  (by decide +kernel : ∀ t : Fin grid0.N, _)

/-- The edge rows' window is at block (t, 0) at grid point t (decided over the 160 points). -/
theorem index_rows2 : ∀ t : Fin cfg0.N, win0_2.index t (0 : Fin 2) = t.val ∧ win0_2.index t (1 : Fin 2) = 0 :=
  (by decide +kernel : ∀ t : Fin grid0.N, _)

/-- The message window is at block (t, 0) at grid point t (decided over the 160 points). -/
theorem index_rows9 : ∀ t : Fin cfg0.N, win0_9.index t (0 : Fin 2) = t.val ∧ win0_9.index t (1 : Fin 2) = 0 :=
  (by decide +kernel : ∀ t : Fin grid0.N, _)

/-- The updated-edge window is at block (t, 0) at grid point t (decided over the 160 points). -/
theorem index_rows10 : ∀ t : Fin cfg0.N, win0_10.index t (0 : Fin 2) = t.val ∧ win0_10.index t (1 : Fin 2) = 0 :=
  (by decide +kernel : ∀ t : Fin grid0.N, _)

/-- The sender weights' window is at block (0, 0) at every grid point (decided over the 160 points). -/
theorem index_whole3 : ∀ t : Fin cfg0.N, win0_3.index t (0 : Fin 2) = 0 ∧ win0_3.index t (1 : Fin 2) = 0 :=
  (by decide +kernel : ∀ t : Fin grid0.N, _)

/-- The receiver weights' window is at block (0, 0) at every grid point (decided over the 160 points). -/
theorem index_whole4 : ∀ t : Fin cfg0.N, win0_4.index t (0 : Fin 2) = 0 ∧ win0_4.index t (1 : Fin 2) = 0 :=
  (by decide +kernel : ∀ t : Fin grid0.N, _)

/-- The edge weights' window is at block (0, 0) at every grid point (decided over the 160 points). -/
theorem index_whole5 : ∀ t : Fin cfg0.N, win0_5.index t (0 : Fin 2) = 0 ∧ win0_5.index t (1 : Fin 2) = 0 :=
  (by decide +kernel : ∀ t : Fin grid0.N, _)

/-- The first bias's window is at block (0, 0) at every grid point (decided over the 160 points). -/
theorem index_whole6 : ∀ t : Fin cfg0.N, win0_6.index t (0 : Fin 2) = 0 ∧ win0_6.index t (1 : Fin 2) = 0 :=
  (by decide +kernel : ∀ t : Fin grid0.N, _)

/-- The second layer's weights' window is at block (0, 0) at every grid point (decided over the 160 points). -/
theorem index_whole7 : ∀ t : Fin cfg0.N, win0_7.index t (0 : Fin 2) = 0 ∧ win0_7.index t (1 : Fin 2) = 0 :=
  (by decide +kernel : ∀ t : Fin grid0.N, _)

/-- The second bias's window is at block (0, 0) at every grid point (decided over the 160 points). -/
theorem index_whole8 : ∀ t : Fin cfg0.N, win0_8.index t (0 : Fin 2) = 0 ∧ win0_8.index t (1 : Fin 2) = 0 :=
  (by decide +kernel : ∀ t : Fin grid0.N, _)

/-! ## A block read off an array, entry by entry -/

/-- Entry (p, a) of the sender rows' window's block at point t is entry (4000·t + p, a) of its array, whatever the array holds:
    a block's coordinate in the array is the block index times the block's size plus the coordinate inside the block. -/
theorem read_rows0 (X : S640000x128.Idx → EReal) (t : Fin cfg0.N) (p : Fin 4000) (a : Fin 128)
    (h : 4000 * t.val + p.val < 640000) :
    ((cfg0.win 0).blk t).view.read (Elt Ideal) X (ix2 p a) = X (ix2 (⟨4000 * t.val + p.val, h⟩ : Fin 640000) a) := by
  rw [View.read_apply]
  show X (((cfg0.win 0).blk t).view.emb (ix2 p a)) = _
  refine congrArg X (funext fun b => Fin.ext ?_)
  match b with
  | ⟨0, _⟩ => show win0_0.index t (0 : Fin 2) * 4000 + 1 * p.val = 4000 * t.val + p.val; rw [(index_rows0 t).1]; omega
  | ⟨1, _⟩ => show win0_0.index t (1 : Fin 2) * 128 + 1 * a.val = a.val; rw [(index_rows0 t).2]; omega

/-- Entry (p, a) of the receiver rows' window's block at point t is entry (4000·t + p, a) of its array, whatever the array holds:
    a block's coordinate in the array is the block index times the block's size plus the coordinate inside the block. -/
theorem read_rows1 (X : S640000x128.Idx → EReal) (t : Fin cfg0.N) (p : Fin 4000) (a : Fin 128)
    (h : 4000 * t.val + p.val < 640000) :
    ((cfg0.win 1).blk t).view.read (Elt Ideal) X (ix2 p a) = X (ix2 (⟨4000 * t.val + p.val, h⟩ : Fin 640000) a) := by
  rw [View.read_apply]
  show X (((cfg0.win 1).blk t).view.emb (ix2 p a)) = _
  refine congrArg X (funext fun b => Fin.ext ?_)
  match b with
  | ⟨0, _⟩ => show win0_1.index t (0 : Fin 2) * 4000 + 1 * p.val = 4000 * t.val + p.val; rw [(index_rows1 t).1]; omega
  | ⟨1, _⟩ => show win0_1.index t (1 : Fin 2) * 128 + 1 * a.val = a.val; rw [(index_rows1 t).2]; omega

/-- Entry (p, a) of the edge rows' window's block at point t is entry (4000·t + p, a) of its array, whatever the array holds:
    a block's coordinate in the array is the block index times the block's size plus the coordinate inside the block. -/
theorem read_rows2 (X : S640000x128.Idx → EReal) (t : Fin cfg0.N) (p : Fin 4000) (a : Fin 128)
    (h : 4000 * t.val + p.val < 640000) :
    ((cfg0.win 2).blk t).view.read (Elt Ideal) X (ix2 p a) = X (ix2 (⟨4000 * t.val + p.val, h⟩ : Fin 640000) a) := by
  rw [View.read_apply]
  show X (((cfg0.win 2).blk t).view.emb (ix2 p a)) = _
  refine congrArg X (funext fun b => Fin.ext ?_)
  match b with
  | ⟨0, _⟩ => show win0_2.index t (0 : Fin 2) * 4000 + 1 * p.val = 4000 * t.val + p.val; rw [(index_rows2 t).1]; omega
  | ⟨1, _⟩ => show win0_2.index t (1 : Fin 2) * 128 + 1 * a.val = a.val; rw [(index_rows2 t).2]; omega

/-- Entry (p, a) of the message window's block at point t is entry (4000·t + p, a) of its array, whatever the array holds:
    a block's coordinate in the array is the block index times the block's size plus the coordinate inside the block. -/
theorem read_rows9 (X : S640000x128.Idx → EReal) (t : Fin cfg0.N) (p : Fin 4000) (a : Fin 128)
    (h : 4000 * t.val + p.val < 640000) :
    ((cfg0.win 9).blk t).view.read (Elt Ideal) X (ix2 p a) = X (ix2 (⟨4000 * t.val + p.val, h⟩ : Fin 640000) a) := by
  rw [View.read_apply]
  show X (((cfg0.win 9).blk t).view.emb (ix2 p a)) = _
  refine congrArg X (funext fun b => Fin.ext ?_)
  match b with
  | ⟨0, _⟩ => show win0_9.index t (0 : Fin 2) * 4000 + 1 * p.val = 4000 * t.val + p.val; rw [(index_rows9 t).1]; omega
  | ⟨1, _⟩ => show win0_9.index t (1 : Fin 2) * 128 + 1 * a.val = a.val; rw [(index_rows9 t).2]; omega

/-- Entry (p, a) of the updated-edge window's block at point t is entry (4000·t + p, a) of its array, whatever the array holds:
    a block's coordinate in the array is the block index times the block's size plus the coordinate inside the block. -/
theorem read_rows10 (X : S640000x128.Idx → EReal) (t : Fin cfg0.N) (p : Fin 4000) (a : Fin 128)
    (h : 4000 * t.val + p.val < 640000) :
    ((cfg0.win 10).blk t).view.read (Elt Ideal) X (ix2 p a) = X (ix2 (⟨4000 * t.val + p.val, h⟩ : Fin 640000) a) := by
  rw [View.read_apply]
  show X (((cfg0.win 10).blk t).view.emb (ix2 p a)) = _
  refine congrArg X (funext fun b => Fin.ext ?_)
  match b with
  | ⟨0, _⟩ => show win0_10.index t (0 : Fin 2) * 4000 + 1 * p.val = 4000 * t.val + p.val; rw [(index_rows10 t).1]; omega
  | ⟨1, _⟩ => show win0_10.index t (1 : Fin 2) * 128 + 1 * a.val = a.val; rw [(index_rows10 t).2]; omega

/-- The sender weights' window's block at any point is its whole array: entry (k, a) of the block is entry (k, a) of the array. -/
theorem read_whole3 (X : S128x256.Idx → EReal) (t : Fin cfg0.N) (k : Fin 128) (a : Fin 256) :
    ((cfg0.win 3).blk t).view.read (Elt Ideal) X (ix2 k a) = X (ix2 k a) := by
  rw [View.read_apply]
  show X (((cfg0.win 3).blk t).view.emb (ix2 k a)) = _
  refine congrArg X (funext fun b => Fin.ext ?_)
  match b with
  | ⟨0, _⟩ => show win0_3.index t (0 : Fin 2) * 128 + 1 * k.val = k.val; rw [(index_whole3 t).1]; omega
  | ⟨1, _⟩ => show win0_3.index t (1 : Fin 2) * 256 + 1 * a.val = a.val; rw [(index_whole3 t).2]; omega

/-- The receiver weights' window's block at any point is its whole array: entry (k, a) of the block is entry (k, a) of the array. -/
theorem read_whole4 (X : S128x256.Idx → EReal) (t : Fin cfg0.N) (k : Fin 128) (a : Fin 256) :
    ((cfg0.win 4).blk t).view.read (Elt Ideal) X (ix2 k a) = X (ix2 k a) := by
  rw [View.read_apply]
  show X (((cfg0.win 4).blk t).view.emb (ix2 k a)) = _
  refine congrArg X (funext fun b => Fin.ext ?_)
  match b with
  | ⟨0, _⟩ => show win0_4.index t (0 : Fin 2) * 128 + 1 * k.val = k.val; rw [(index_whole4 t).1]; omega
  | ⟨1, _⟩ => show win0_4.index t (1 : Fin 2) * 256 + 1 * a.val = a.val; rw [(index_whole4 t).2]; omega

/-- The edge weights' window's block at any point is its whole array: entry (k, a) of the block is entry (k, a) of the array. -/
theorem read_whole5 (X : S128x256.Idx → EReal) (t : Fin cfg0.N) (k : Fin 128) (a : Fin 256) :
    ((cfg0.win 5).blk t).view.read (Elt Ideal) X (ix2 k a) = X (ix2 k a) := by
  rw [View.read_apply]
  show X (((cfg0.win 5).blk t).view.emb (ix2 k a)) = _
  refine congrArg X (funext fun b => Fin.ext ?_)
  match b with
  | ⟨0, _⟩ => show win0_5.index t (0 : Fin 2) * 128 + 1 * k.val = k.val; rw [(index_whole5 t).1]; omega
  | ⟨1, _⟩ => show win0_5.index t (1 : Fin 2) * 256 + 1 * a.val = a.val; rw [(index_whole5 t).2]; omega

/-- The first bias's window's block at any point is its whole array: entry (k, a) of the block is entry (k, a) of the array. -/
theorem read_whole6 (X : S1x256.Idx → EReal) (t : Fin cfg0.N) (k : Fin 1) (a : Fin 256) :
    ((cfg0.win 6).blk t).view.read (Elt Ideal) X (ix2 k a) = X (ix2 k a) := by
  rw [View.read_apply]
  show X (((cfg0.win 6).blk t).view.emb (ix2 k a)) = _
  refine congrArg X (funext fun b => Fin.ext ?_)
  match b with
  | ⟨0, _⟩ => show win0_6.index t (0 : Fin 2) * 1 + 1 * k.val = k.val; rw [(index_whole6 t).1]; omega
  | ⟨1, _⟩ => show win0_6.index t (1 : Fin 2) * 256 + 1 * a.val = a.val; rw [(index_whole6 t).2]; omega

/-- The second layer's weights' window's block at any point is its whole array: entry (k, a) of the block is entry (k, a) of the array. -/
theorem read_whole7 (X : S256x128.Idx → EReal) (t : Fin cfg0.N) (k : Fin 256) (a : Fin 128) :
    ((cfg0.win 7).blk t).view.read (Elt Ideal) X (ix2 k a) = X (ix2 k a) := by
  rw [View.read_apply]
  show X (((cfg0.win 7).blk t).view.emb (ix2 k a)) = _
  refine congrArg X (funext fun b => Fin.ext ?_)
  match b with
  | ⟨0, _⟩ => show win0_7.index t (0 : Fin 2) * 256 + 1 * k.val = k.val; rw [(index_whole7 t).1]; omega
  | ⟨1, _⟩ => show win0_7.index t (1 : Fin 2) * 128 + 1 * a.val = a.val; rw [(index_whole7 t).2]; omega

/-- The second bias's window's block at any point is its whole array: entry (k, a) of the block is entry (k, a) of the array. -/
theorem read_whole8 (X : S1x128.Idx → EReal) (t : Fin cfg0.N) (k : Fin 1) (a : Fin 128) :
    ((cfg0.win 8).blk t).view.read (Elt Ideal) X (ix2 k a) = X (ix2 k a) := by
  rw [View.read_apply]
  show X (((cfg0.win 8).blk t).view.emb (ix2 k a)) = _
  refine congrArg X (funext fun b => Fin.ext ?_)
  match b with
  | ⟨0, _⟩ => show win0_8.index t (0 : Fin 2) * 1 + 1 * k.val = k.val; rw [(index_whole8 t).1]; omega
  | ⟨1, _⟩ => show win0_8.index t (1 : Fin 2) * 128 + 1 * a.val = a.val; rw [(index_whole8 t).2]; omega

/-! ## A row of the layer depends on one row of each row-tiled input and on the tables -/

/-- Equal rows and equal tables give equal messages. -/
theorem edgeMsg_congr {M M' : Nat} (S R E : Fin M → Fin 128 → EReal) (S' R' E' : Fin M' → Fin 128 → EReal)
    (Ws Wr We Ws' Wr' We' : Fin 128 → Fin 256 → EReal) (b1 b1' : Fin 256 → EReal) (W2 W2' : Fin 256 → Fin 128 → EReal)
    (b2 b2' : Fin 128 → EReal) (i : Fin M) (i' : Fin M') (hS : S i = S' i') (hR : R i = R' i') (hE : E i = E' i')
    (hWs : Ws = Ws') (hWr : Wr = Wr') (hWe : We = We') (hb1 : b1 = b1') (hW2 : W2 = W2') (hb2 : b2 = b2')
    (q : Fin 128) : edgeMsg S R E Ws Wr We b1 W2 b2 i q = edgeMsg S' R' E' Ws' Wr' We' b1' W2' b2' i' q := by
  subst hWs hWr hWe hb1 hW2 hb2
  exact edgeMsg_row S R E S' R' E' Ws Wr We b1 W2 b2 i i' hS hR hE q

/-- Equal rows and equal tables give equal updated edges. -/
theorem edgeOut_congr {M M' : Nat} (S R E : Fin M → Fin 128 → EReal) (S' R' E' : Fin M' → Fin 128 → EReal)
    (Ws Wr We Ws' Wr' We' : Fin 128 → Fin 256 → EReal) (b1 b1' : Fin 256 → EReal) (W2 W2' : Fin 256 → Fin 128 → EReal)
    (b2 b2' : Fin 128 → EReal) (i : Fin M) (i' : Fin M') (hS : S i = S' i') (hR : R i = R' i') (hE : E i = E' i')
    (hWs : Ws = Ws') (hWr : Wr = Wr') (hWe : We = We') (hb1 : b1 = b1') (hW2 : W2 = W2') (hb2 : b2 = b2')
    (q : Fin 128) : edgeOut S R E Ws Wr We b1 W2 b2 i q = edgeOut S' R' E' Ws' Wr' We' b1' W2' b2' i' q := by
  subst hWs hWr hWe hb1 hW2 hb2
  exact edgeOut_row S R E S' R' E' Ws Wr We b1 W2 b2 i i' hS hR hE q

variable (V : (c : Dev nD) → (b : Ref sig .tc) → Buf (Elt Ideal) ((c : Thread nD τ).loc b))

/-! ## The input blocks at a point, read off the entry arrays -/

/-- Row p of the sender block at point t is row 4000·t + p of the sender array. -/
theorem sender_rows (c : Dev nD) (t : Fin cfg0.N) (p : Fin 4000) (h : 4000 * t.val + p.val < 640000) :
    acc2 (iblk0 (F := Ideal) V c 0 t) p = acc2 (V c main_v6) (⟨4000 * t.val + p.val, h⟩ : Fin 640000) :=
  funext fun a => read_rows0 (V c main_v6) t p a h

/-- Row p of the receiver block at point t is row 4000·t + p of the receiver array. -/
theorem receiver_rows (c : Dev nD) (t : Fin cfg0.N) (p : Fin 4000) (h : 4000 * t.val + p.val < 640000) :
    acc2 (iblk0 (F := Ideal) V c 1 t) p = acc2 (V c main_v13) (⟨4000 * t.val + p.val, h⟩ : Fin 640000) :=
  funext fun a => read_rows1 (V c main_v13) t p a h

/-- Row p of the edge block at point t is row 4000·t + p of the edge array. -/
theorem edge_rows (c : Dev nD) (t : Fin cfg0.N) (p : Fin 4000) (h : 4000 * t.val + p.val < 640000) :
    acc2 (iblk0 (F := Ideal) V c 2 t) p = acc2 (V c main_arg1) (⟨4000 * t.val + p.val, h⟩ : Fin 640000) :=
  funext fun a => read_rows2 (V c main_arg1) t p a h

/-- The sender weights' block at any point is the whole table. -/
theorem sender_weights (c : Dev nD) (t : Fin cfg0.N) : acc2 (iblk0 (F := Ideal) V c 3 t) = acc2 (V c main_v15) :=
  funext fun k => funext fun a => read_whole3 (V c main_v15) t k a

/-- The receiver weights' block at any point is the whole table. -/
theorem receiver_weights (c : Dev nD) (t : Fin cfg0.N) : acc2 (iblk0 (F := Ideal) V c 4 t) = acc2 (V c main_v17) :=
  funext fun k => funext fun a => read_whole4 (V c main_v17) t k a

/-- The edge weights' block at any point is the whole table. -/
theorem edge_weights (c : Dev nD) (t : Fin cfg0.N) : acc2 (iblk0 (F := Ideal) V c 5 t) = acc2 (V c main_v19) :=
  funext fun k => funext fun a => read_whole5 (V c main_v19) t k a

/-- The second layer's weights' block at any point is the whole table. -/
theorem second_weights (c : Dev nD) (t : Fin cfg0.N) : acc2 (iblk0 (F := Ideal) V c 7 t) = acc2 (V c main_v20) :=
  funext fun k => funext fun a => read_whole7 (V c main_v20) t k a

/-- The first bias's block at any point is the whole bias row. -/
theorem first_bias (c : Dev nD) (t : Fin cfg0.N) : row0 (iblk0 (F := Ideal) V c 6 t) = row0 (V c main_v26) :=
  funext fun a => read_whole6 (V c main_v26) t 0 a

/-- The second bias's block at any point is the whole bias row. -/
theorem second_bias (c : Dev nD) (t : Fin cfg0.N) : row0 (iblk0 (F := Ideal) V c 8 t) = row0 (V c main_v27) :=
  funext fun a => read_whole8 (V c main_v27) t 0 a

/-! ## message array: what a point writes, and the cover -/

/-- What point t writes back is block t of the layer's message array of the entry arrays: entry (p, q) of the body's
    result is the layer's function of row p of the three input tiles, and row p of a tile is row 4000·t + p of its array. -/
theorem msg_flushed (c : Dev nD) (t : Fin cfg0.N) :
    (dat0 (F := Ideal) V c).flushed 9 t
      = ((cfg0.win 9).blk t).view.read (Elt Ideal)
        (arr2 (edgeMsg (acc2 (V c main_v6)) (acc2 (V c main_v13)) (acc2 (V c main_arg1))
          (acc2 (V c main_v15)) (acc2 (V c main_v17)) (acc2 (V c main_v19)) (row0 (V c main_v26))
          (acc2 (V c main_v20)) (row0 (V c main_v27)))) := by
  show (cfg0.win 9).cut (grid0.coords t) ((dat0 (F := Ideal) V c).after 9 t) = _
  rw [after0_9]
  unfold out0_9
  rw [View.canon_unit_zero zero_offsets]
  simp only [View.ld_unit_zero (S := S4000x128) zero_offsets, View.ld_unit_zero (S := S128x256) zero_offsets,
    View.ld_unit_zero (S := S1x256) zero_offsets, View.ld_unit_zero (S := S256x128) zero_offsets,
    View.ld_unit_zero (S := S1x128) zero_offsets]
  funext y
  obtain ⟨p, q, rfl⟩ : ∃ (p : Fin 4000) (q : Fin 128), y = ix2 p q := ⟨y 0, y 1, eq_ix2 y⟩
  have ht : t.val < 160 := point_lt t
  have h : 4000 * t.val + p.val < 640000 := by have := p.isLt; omega
  refine (EdgeTile.msg_tile _ _ _ _ _ _ _ _ _ p q).trans ?_
  refine Eq.trans ?_ (read_rows9 _ t p q h).symm
  exact edgeMsg_congr _ _ _ _ _ _ _ _ _ _ _ _ _ _ _ _ _ _ p ⟨4000 * t.val + p.val, h⟩
    (sender_rows V c t p h) (receiver_rows V c t p h) (edge_rows V c t p h)
    (sender_weights V c t) (receiver_weights V c t) (edge_weights V c t) (first_bias V c t)
    (second_weights V c t) (second_bias V c t) q

/-- An index of the array is in point t's block iff each coordinate is in the block's range on its axis. -/
theorem msg_mem_block (t : Fin cfg0.N) (i : S640000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v30_0).slice (win0_9.rect t)).set ↔ _
  rw [View.set_slice_whole, Rect.mem_set_unit]
  exact Iff.rfl

/-- The 160 blocks of 4000 rows tile the 640000 rows: row r is in the block of point r / 4000. -/
theorem msg_cover (i : S640000x128.Idx) :
    ∃ t : Fin cfg0.N, (cfg0.win 9).flush t = true ∧ i ∈ ((cfg0.win 9).blk t).view.set := by
  have hi0 : (i 0).val < 640000 := (i 0).isLt
  have hi1 : (i 1).val < 128 := (i 1).isLt
  have hN : cfg0.N = 160 := N_0
  refine ⟨⟨(i 0).val / 4000, by omega⟩, flush0_9 _, ?_⟩
  rw [msg_mem_block]
  intro a
  match a with
  | ⟨0, _⟩ =>
    show win0_9.index _ (0 : Fin 2) * 4000 ≤ (i 0).val ∧ (i 0).val < win0_9.index _ (0 : Fin 2) * 4000 + 4000
    rw [(index_rows9 _).1]
    show (i 0).val / 4000 * 4000 ≤ (i 0).val ∧ (i 0).val < (i 0).val / 4000 * 4000 + 4000
    omega
  | ⟨1, _⟩ =>
    show win0_9.index _ (1 : Fin 2) * 128 ≤ (i 1).val ∧ (i 1).val < win0_9.index _ (1 : Fin 2) * 128 + 128
    rw [(index_rows9 _).2]
    omega

/-! ## updated-edge array: what a point writes, and the cover -/

/-- What point t writes back is block t of the layer's updated-edge array of the entry arrays: entry (p, q) of the body's
    result is the layer's function of row p of the three input tiles, and row p of a tile is row 4000·t + p of its array. -/
theorem out_flushed (c : Dev nD) (t : Fin cfg0.N) :
    (dat0 (F := Ideal) V c).flushed 10 t
      = ((cfg0.win 10).blk t).view.read (Elt Ideal)
        (arr2 (edgeOut (acc2 (V c main_v6)) (acc2 (V c main_v13)) (acc2 (V c main_arg1))
          (acc2 (V c main_v15)) (acc2 (V c main_v17)) (acc2 (V c main_v19)) (row0 (V c main_v26))
          (acc2 (V c main_v20)) (row0 (V c main_v27)))) := by
  show (cfg0.win 10).cut (grid0.coords t) ((dat0 (F := Ideal) V c).after 10 t) = _
  rw [after0_10]
  unfold out0_10
  rw [View.canon_unit_zero zero_offsets]
  simp only [View.ld_unit_zero (S := S4000x128) zero_offsets, View.ld_unit_zero (S := S128x256) zero_offsets,
    View.ld_unit_zero (S := S1x256) zero_offsets, View.ld_unit_zero (S := S256x128) zero_offsets,
    View.ld_unit_zero (S := S1x128) zero_offsets]
  funext y
  obtain ⟨p, q, rfl⟩ : ∃ (p : Fin 4000) (q : Fin 128), y = ix2 p q := ⟨y 0, y 1, eq_ix2 y⟩
  have ht : t.val < 160 := point_lt t
  have h : 4000 * t.val + p.val < 640000 := by have := p.isLt; omega
  refine (EdgeTile.out_tile _ _ _ _ _ _ _ _ _ p q).trans ?_
  refine Eq.trans ?_ (read_rows10 _ t p q h).symm
  exact edgeOut_congr _ _ _ _ _ _ _ _ _ _ _ _ _ _ _ _ _ _ p ⟨4000 * t.val + p.val, h⟩
    (sender_rows V c t p h) (receiver_rows V c t p h) (edge_rows V c t p h)
    (sender_weights V c t) (receiver_weights V c t) (edge_weights V c t) (first_bias V c t)
    (second_weights V c t) (second_bias V c t) q

/-- An index of the array is in point t's block iff each coordinate is in the block's range on its axis. -/
theorem out_mem_block (t : Fin cfg0.N) (i : S640000x128.Idx) :
    i ∈ ((cfg0.win 10).blk t).view.set ↔ ∀ a : Fin 2, win0_10.index t a * S4000x128.size a ≤ (i a).val
      ∧ (i a).val < win0_10.index t a * S4000x128.size a + S4000x128.size a := by
  show i ∈ ((View.whole main_v30_1).slice (win0_10.rect t)).set ↔ _
  rw [View.set_slice_whole, Rect.mem_set_unit]
  exact Iff.rfl

/-- The 160 blocks of 4000 rows tile the 640000 rows: row r is in the block of point r / 4000. -/
theorem out_cover (i : S640000x128.Idx) :
    ∃ t : Fin cfg0.N, (cfg0.win 10).flush t = true ∧ i ∈ ((cfg0.win 10).blk t).view.set := by
  have hi0 : (i 0).val < 640000 := (i 0).isLt
  have hi1 : (i 1).val < 128 := (i 1).isLt
  have hN : cfg0.N = 160 := N_0
  refine ⟨⟨(i 0).val / 4000, by omega⟩, flush0_10 _, ?_⟩
  rw [out_mem_block]
  intro a
  match a with
  | ⟨0, _⟩ =>
    show win0_10.index _ (0 : Fin 2) * 4000 ≤ (i 0).val ∧ (i 0).val < win0_10.index _ (0 : Fin 2) * 4000 + 4000
    rw [(index_rows10 _).1]
    show (i 0).val / 4000 * 4000 ≤ (i 0).val ∧ (i 0).val < (i 0).val / 4000 * 4000 + 4000
    omega
  | ⟨1, _⟩ =>
    show win0_10.index _ (1 : Fin 2) * 128 ≤ (i 1).val ∧ (i 1).val < win0_10.index _ (1 : Fin 2) * 128 + 128
    rw [(index_rows10 _).2]
    omega

/-- The message array (output window 9) after the region. -/
theorem msg_array (c : Dev nD) :
    (dat0 (F := Ideal) V c).arrAt 9 cfg0.N
      = arr2 (edgeMsg (acc2 (V c main_v6)) (acc2 (V c main_v13)) (acc2 (V c main_arg1))
          (acc2 (V c main_v15)) (acc2 (V c main_v17)) (acc2 (V c main_v19)) (row0 (V c main_v26))
          (acc2 (V c main_v20)) (row0 (V c main_v27))) := by
  exact (dat0 (F := Ideal) V c).arrAt_eq_of_cover 9 _ (fun t _ => msg_flushed V c t) msg_cover

/-- The updated-edge array (output window 10) after the region. -/
theorem out_array (c : Dev nD) :
    (dat0 (F := Ideal) V c).arrAt 10 cfg0.N
      = arr2 (edgeOut (acc2 (V c main_v6)) (acc2 (V c main_v13)) (acc2 (V c main_arg1))
          (acc2 (V c main_v15)) (acc2 (V c main_v17)) (acc2 (V c main_v19)) (row0 (V c main_v26))
          (acc2 (V c main_v20)) (row0 (V c main_v27))) := by
  exact (dat0 (F := Ideal) V c).arrAt_eq_of_cover 10 _ (fun t _ => out_flushed V c t) out_cover

end Cert.MP.EdgeRegion

end
-- ==== Proof.NodeTile.lean ====
import proofs.«163415_j16320875725329_2_alg».proof.Proof.Gen.KernelIdeal.Skeleton
import proofs.«163415_j16320875725329_2_alg».proof.Proof.Rows
import Idealize.ShloMosaic.Lib.ValueIdx
import Idealize.ShloMosaic.Lib.ValueLayout
import Idealize.ShloMosaic.Lib.Pipeline.Value
import Idealize.ShloMosaic.PureOps.Ideal.Laws

/-!
The node kernel's body on one tile of 5000 rows, entry by entry: what it stores is the message-passing layer's node
function of the tile's own rows.
-/

noncomputable section

namespace Cert.MP.NodeTile

open Idealize.ShloMosaic Idealize.ShloMosaic.ValueIdx Cert.KernelIdeal Cert.KernelIdeal.Gen Cert.MP

/-! ## A product into a zero accumulator, entry by entry

Entry (p, k) of a product of a [5000, n] array with an [n, m] array is the sum over the shared axis of the products
of row p of the first with column k of the second. The contraction's one-axis index is its one coordinate, so the sum
over that index is a sum over `Fin n`; the left operand is read at (p, j) and the right at (j, k). -/

/-- First layer, left operand: the row coordinate is the result's row. -/
theorem lhs1_0 (i : S5000x256.Idx) (c : dot_S5000x128_S128x256_S5000x256_1_0_0_1_n_n.contr.Idx) :
    (dot_S5000x128_S128x256_S5000x256_1_0_0_1_n_n.lhsIdx i c 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- First layer, left operand: the column coordinate is the contracted one. -/
theorem lhs1_1 (i : S5000x256.Idx) (c : dot_S5000x128_S128x256_S5000x256_1_0_0_1_n_n.contr.Idx) :
    (dot_S5000x128_S128x256_S5000x256_1_0_0_1_n_n.lhsIdx i c 1).val = (c ⟨0, by decide⟩).val :=
  dot_S5000x128_S128x256_S5000x256_1_0_0_1_n_n.lhsIdx_val_of_single rfl i c
/-- First layer, right operand: the row coordinate is the contracted one. -/
theorem rhs1_0 (i : S5000x256.Idx) (c : dot_S5000x128_S128x256_S5000x256_1_0_0_1_n_n.contr.Idx) :
    (dot_S5000x128_S128x256_S5000x256_1_0_0_1_n_n.rhsIdx i c 0).val = (c ⟨0, by decide⟩).val :=
  dot_S5000x128_S128x256_S5000x256_1_0_0_1_n_n.rhsIdx_val_of_single rfl i c
/-- First layer, right operand: the column coordinate is the result's column. -/
theorem rhs1_1 (i : S5000x256.Idx) (c : dot_S5000x128_S128x256_S5000x256_1_0_0_1_n_n.contr.Idx) :
    (dot_S5000x128_S128x256_S5000x256_1_0_0_1_n_n.rhsIdx i c 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The first layer's product at (p, k): the sum over the 128 shared columns. -/
theorem mm1 (a : FVec Ideal S5000x128 .bf16) (b : FVec Ideal S128x256 .bf16) (p : Fin 5000) (k : Fin 256) :
    matmul (F := Ideal) dot_S5000x128_S128x256_S5000x256_1_0_0_1_n_n none a b (constant (F := Ideal) S5000x256 .f32 0x00000000#32) (ix2 p k)
      = ∑ j : Fin 128, a (ix2 p j) * b (ix2 j k) := by
  refine (Ideal.matmul_constant_zero_apply dot_S5000x128_S128x256_S5000x256_1_0_0_1_n_n none a b (ix2 p k)).trans ?_
  rw [← Equiv.sum_comp (ValueIdx.contrEquiv1 dot_S5000x128_S128x256_S5000x256_1_0_0_1_n_n 128 rfl rfl).symm]
  refine Finset.sum_congr rfl fun j _ => ?_
  have hj := ValueIdx.contrEquiv1_symm_val dot_S5000x128_S128x256_S5000x256_1_0_0_1_n_n 128 rfl rfl j
  have el : dot_S5000x128_S128x256_S5000x256_1_0_0_1_n_n.lhsIdx (ix2 p k) ((ValueIdx.contrEquiv1 dot_S5000x128_S128x256_S5000x256_1_0_0_1_n_n 128 rfl rfl).symm j) = ix2 p j := funext fun d => Fin.ext (by
    match d with
    | ⟨0, _⟩ => exact lhs1_0 _ _
    | ⟨1, _⟩ => exact (lhs1_1 _ _).trans hj)
  have er : dot_S5000x128_S128x256_S5000x256_1_0_0_1_n_n.rhsIdx (ix2 p k) ((ValueIdx.contrEquiv1 dot_S5000x128_S128x256_S5000x256_1_0_0_1_n_n 128 rfl rfl).symm j) = ix2 j k := funext fun d => Fin.ext (by
    match d with
    | ⟨0, _⟩ => exact (rhs1_0 _ _).trans hj
    | ⟨1, _⟩ => exact rhs1_1 _ _)
  rw [el, er]

/-- Second layer, left operand: the row coordinate is the result's row. -/
theorem lhs2_0 (i : S5000x128.Idx) (c : dot_S5000x256_S256x128_S5000x128_1_0_0_1_n_n.contr.Idx) :
    (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- Second layer, left operand: the column coordinate is the contracted one. -/
theorem lhs2_1 (i : S5000x128.Idx) (c : dot_S5000x256_S256x128_S5000x128_1_0_0_1_n_n.contr.Idx) :
    (dot_S5000x256_S256x128_S5000x128_1_0_0_1_n_n.lhsIdx i c 1).val = (c ⟨0, by decide⟩).val :=
  dot_S5000x256_S256x128_S5000x128_1_0_0_1_n_n.lhsIdx_val_of_single rfl i c
/-- Second layer, right operand: the row coordinate is the contracted one. -/
theorem rhs2_0 (i : S5000x128.Idx) (c : dot_S5000x256_S256x128_S5000x128_1_0_0_1_n_n.contr.Idx) :
    (dot_S5000x256_S256x128_S5000x128_1_0_0_1_n_n.rhsIdx i c 0).val = (c ⟨0, by decide⟩).val :=
  dot_S5000x256_S256x128_S5000x128_1_0_0_1_n_n.rhsIdx_val_of_single rfl i c
/-- Second layer, right operand: the column coordinate is the result's column. -/
theorem rhs2_1 (i : S5000x128.Idx) (c : dot_S5000x256_S256x128_S5000x128_1_0_0_1_n_n.contr.Idx) :
    (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The second layer's product at (p, q): the sum over the 256 hidden columns. -/
theorem mm2 (a : FVec Ideal S5000x256 .bf16) (b : FVec Ideal S256x128 .bf16) (p : Fin 5000) (q : Fin 128) :
    matmul (F := Ideal) dot_S5000x256_S256x128_S5000x128_1_0_0_1_n_n none a b (constant (F := Ideal) S5000x128 .f32 0x00000000#32) (ix2 p q)
      = ∑ k : Fin 256, a (ix2 p k) * b (ix2 k q) := by
  refine (Ideal.matmul_constant_zero_apply dot_S5000x256_S256x128_S5000x128_1_0_0_1_n_n none a b (ix2 p q)).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun d => Fin.ext (by
    match d with
    | ⟨0, _⟩ => exact lhs2_0 _ _
    | ⟨1, _⟩ => exact (lhs2_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun d => Fin.ext (by
    match d with
    | ⟨0, _⟩ => exact (rhs2_0 _ _).trans hk
    | ⟨1, _⟩ => exact rhs2_1 _ _)
  rw [el, er]

/-! ## The hidden tile

The body first forms, for row p and hidden column k, the number z = node row · Wn + aggregate row · Wg + bias, then
applies the activation to it entry by entry. Narrowing to a shorter float format changes nothing on the extended
reals, and a cast of an array to its own shape is the array. -/

/-- The first layer before the activation: the two products summed, plus the bias row laid over every row. -/
def preTile (x0 x1 : Vec Ideal S5000x128 .f32) (x2 x3 : Vec Ideal S128x256 .bf16) (x4 : Vec Ideal S1x256 .f32) :
    FVec Ideal S5000x256 .f32 :=
  addf
    (addf
      (matmul (F := Ideal) dot_S5000x128_S128x256_S5000x256_1_0_0_1_n_n none
        (truncf .bf16 x0 Facts₀.bitsLt_bf16_f32 : FVec Ideal S5000x128 .bf16)
        (shapeCast S128x256 x2 Facts₀.shapeCasts_S128x256_S128x256 : FVec Ideal S128x256 .bf16)
        (constant (F := Ideal) S5000x256 .f32 0x00000000#32))
      (matmul (F := Ideal) dot_S5000x128_S128x256_S5000x256_1_0_0_1_n_n none
        (truncf .bf16 (shapeCast S5000x128 x1 Facts₀.shapeCasts_S5000x128_S5000x128 : FVec Ideal S5000x128 .f32) Facts₀.bitsLt_bf16_f32 : FVec Ideal S5000x128 .bf16)
        (shapeCast S128x256 x3 Facts₀.shapeCasts_S128x256_S128x256 : FVec Ideal S128x256 .bf16)
        (constant (F := Ideal) S5000x256 .f32 0x00000000#32)))
    (broadcastTo S5000x256 (shapeCast S1x256 x4 Facts₀.shapeCasts_S1x256_S1x256 : FVec Ideal S1x256 .f32) Facts₀.broadcasts_S1x256_S5000x256 : FVec Ideal S5000x256 .f32)

/-- The activation as the body spells it, entry by entry on a tile, the cube grouped z·(z·z), then narrowed. -/
def actTile (z : FVec Ideal S5000x256 .f32) : FVec Ideal S5000x256 .bf16 :=
  truncf .bf16
    (mulf z
      (mulf (broadcast S5000x256 (Scalar.ofBits (F := Ideal) .f32 0x3F000000#32))
        (addf (broadcast S5000x256 (Scalar.ofBits (F := Ideal) .f32 0x3F800000#32))
          (tanh
            (mulf (broadcast S5000x256 (Scalar.ofBits (F := Ideal) .f32 0x3F4C422A#32))
              (addf z
                (mulf (broadcast S5000x256 (Scalar.ofBits (F := Ideal) .f32 0x3D372713#32))
                  (mulf z (mulf z z)))))))))
    Facts₀.bitsLt_bf16_f32

/-- The body's value is: the node tile, plus (activated hidden tile · W2, plus the second bias row laid over every
    row). Both sides are the same chain of operations, the left one with its intermediate values named. -/
theorem k1_pay1_eq (x0 x1 : Vec Ideal S5000x128 .f32) (x2 x3 : Vec Ideal S128x256 .bf16) (x4 : Vec Ideal S1x256 .f32)
    (x5 : Vec Ideal S256x128 .bf16) (x6 : Vec Ideal S1x128 .f32) :
    k1_pay1 (F := Ideal) x0 x1 x2 x3 x4 x5 x6
      = addf x0
          (addf
            (matmul (F := Ideal) dot_S5000x256_S256x128_S5000x128_1_0_0_1_n_n none
              (actTile (preTile x0 x1 x2 x3 x4))
              (shapeCast S256x128 x5 Facts₀.shapeCasts_S256x128_S256x128 : FVec Ideal S256x128 .bf16)
              (constant (F := Ideal) S5000x128 .f32 0x00000000#32))
            (broadcastTo S5000x128 (shapeCast S1x128 x6 Facts₀.shapeCasts_S1x128_S1x128 : FVec Ideal S1x128 .f32) Facts₀.broadcasts_S1x128_S5000x128 : FVec Ideal S5000x128 .f32)) :=
  rfl

/-- The activation on a tile is GELU of each entry: every operation acts entry by entry, the four constants are the
    words GELU is written with, and the cube's other grouping is the same number. -/
theorem actTile_apply (z : FVec Ideal S5000x256 .f32) (i : S5000x256.Idx) : actTile z i = gelu (z i) :=
  gelu_cube_right (z i)

/-- The first layer before the activation at (p, k): node row · column k of Wn, plus aggregate row · column k of Wg,
    plus entry k of the bias. -/
theorem preTile_apply (x0 x1 : Vec Ideal S5000x128 .f32) (x2 x3 : Vec Ideal S128x256 .bf16) (x4 : Vec Ideal S1x256 .f32)
    (p : Fin 5000) (k : Fin 256) :
    preTile x0 x1 x2 x3 x4 (ix2 p k)
      = ((∑ a : Fin 128, acc2 x0 p a * acc2 x2 a k) + (∑ a : Fin 128, acc2 x1 p a * acc2 x3 a k)) + row0 x4 k := by
  unfold preTile
  refine congrArg₂ (fun a b : EReal => a + b) (congrArg₂ (fun a b : EReal => a + b) ?_ ?_) ?_
  · refine (mm1 _ _ p k).trans ?_
    refine Finset.sum_congr rfl fun a _ => ?_
    exact congrArg (fun b : EReal => x0 (ix2 p a) * b) (congrFun (shapeCast_self x2 _) (ix2 a k))
  · refine (mm1 _ _ p k).trans ?_
    refine Finset.sum_congr rfl fun a _ => ?_
    exact congrArg₂ (fun a b : EReal => a * b) (congrFun (shapeCast_self x1 _) (ix2 p a)) (congrFun (shapeCast_self x3 _) (ix2 a k))
  · refine (broadcastTo_1b_ab_apply _ _ p k).trans ?_
    exact congrFun (shapeCast_self x4 _) (ix2 (0 : Fin 1) k)

/-- The hidden tile at (p, k) is the layer's hidden row of node row p and aggregate row p, column k. -/
theorem hidden_apply (x0 x1 : Vec Ideal S5000x128 .f32) (x2 x3 : Vec Ideal S128x256 .bf16) (x4 : Vec Ideal S1x256 .f32)
    (p : Fin 5000) (k : Fin 256) :
    actTile (preTile x0 x1 x2 x3 x4) (ix2 p k) = hidden2 (acc2 x0 p) (acc2 x1 p) (acc2 x2) (acc2 x3) (row0 x4) k := by
  refine (actTile_apply _ _).trans ?_
  unfold hidden2
  exact congrArg gelu (preTile_apply x0 x1 x2 x3 x4 p k)

/-- The updated-node tile: entry (p, q) is the node's own entry plus the perceptron of (node row, aggregated row). -/
theorem node_tile (x0 x1 : Vec Ideal S5000x128 .f32) (x2 x3 : Vec Ideal S128x256 .bf16) (x4 : Vec Ideal S1x256 .f32)
    (x5 : Vec Ideal S256x128 .bf16) (x6 : Vec Ideal S1x128 .f32) (p : Fin 5000) (q : Fin 128) :
    k1_pay1 (F := Ideal) x0 x1 x2 x3 x4 x5 x6 (ix2 p q)
      = nodeOut (acc2 x0) (acc2 x1) (acc2 x2) (acc2 x3) (row0 x4) (acc2 x5) (row0 x6) p q := by
  refine (congrFun (k1_pay1_eq x0 x1 x2 x3 x4 x5 x6) (ix2 p q)).trans ?_
  unfold nodeOut out2
  refine congrArg (fun b : EReal => x0 (ix2 p q) + b) (congrArg₂ (fun a b : EReal => a + b) ?_ ?_)
  · refine (mm2 _ _ p q).trans ?_
    refine Finset.sum_congr rfl fun k _ => ?_
    exact congrArg₂ (fun a b : EReal => a * b) (hidden_apply x0 x1 x2 x3 x4 p k) (congrFun (shapeCast_self x5 _) (ix2 k q))
  · refine (broadcastTo_1b_ab_apply _ _ p q).trans ?_
    exact congrFun (shapeCast_self x6 _) (ix2 (0 : Fin 1) q)

end Cert.MP.NodeTile

end
-- ==== Proof.NodeRegion.lean ====
import proofs.«163415_j16320875725329_2_alg».proof.Proof.Gen.KernelIdeal.Frame
import proofs.«163415_j16320875725329_2_alg».proof.Proof.NodeTile
import Idealize.ShloMosaic.Lib.Pipeline.Value

/-!
The node region's output array after its 10 grid points, from ANY buffer contents `V` at the region's entry: point t
writes rows 5000·t … 5000·t + 4999, those rows depend only on the same rows of the two row-tiled inputs, and the 10
blocks tile the 50000 rows; so the output array is the layer's node function of the entry arrays, whole.
-/

noncomputable section

namespace Cert.MP.NodeRegion

open Idealize.ShloMosaic Idealize.ShloMosaic.TcCoe Idealize.ShloMosaic.ValueIdx Idealize.SL.Sem
open Cert.KernelIdeal Cert.KernelIdeal.Gen Cert.MP

variable (V : (c : Dev nD) → (b : Ref sig .tc) → Buf (Elt Ideal) ((c : Thread nD τ).loc b))

/-- The offsets of a whole-buffer access, however its zeros are spelt. -/
theorem zeroOff : (![0, 0] : Fin 2 → Nat) = fun _ => 0 := funext fun a => by fin_cases a <;> rfl

/-- The region's grid has 10 points. -/
theorem point_lt (t : Fin cfg1.N) : t.val < 10 := lt_of_lt_of_eq t.isLt N_1

/-- The index maps, decided once over the grid: at point t the two row-tiled inputs and the output sit at block
    (t, 0), the weight tables and bias rows at block (0, 0). -/
theorem blockIndex : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-! ## A block read off an array: row p of block t is row 5000·t + p of the array

Each lemma is stated over ANY contents `X` of the window's array: a block's element sits in the array, on each axis,
at block index × block size + its own coordinate. -/

/-- The node rows: block t of the [50000, 128] array is its rows 5000·t … 5000·t + 4999. -/
theorem read_rows0 (t : Fin cfg1.N) (X : Vec Ideal S50000x128 .f32) (p : Fin 5000) (a : Fin 128) :
    ((cfg1.win 0).blk t).view.read (Elt Ideal) X (ix2 p a)
      = X (ix2 (⟨5000 * t.val + p.val, by have := point_lt t; have := p.isLt; omega⟩ : Fin 50000) a) := by
  rw [View.read_apply]
  refine congrArg X ?_
  funext b
  apply Fin.ext
  match b with
  | ⟨0, _⟩ =>
    show win1_0.index t (0 : Fin 2) * 5000 + 1 * p.val = 5000 * t.val + p.val
    rw [(blockIndex t).1.1]; omega
  | ⟨1, _⟩ =>
    show win1_0.index t (1 : Fin 2) * 128 + 1 * a.val = a.val
    rw [(blockIndex t).1.2]; omega

/-- The aggregated rows, tiled the same way. -/
theorem read_rows1 (t : Fin cfg1.N) (X : Vec Ideal S50000x128 .f32) (p : Fin 5000) (a : Fin 128) :
    ((cfg1.win 1).blk t).view.read (Elt Ideal) X (ix2 p a)
      = X (ix2 (⟨5000 * t.val + p.val, by have := point_lt t; have := p.isLt; omega⟩ : Fin 50000) a) := by
  rw [View.read_apply]
  refine congrArg X ?_
  funext b
  apply Fin.ext
  match b with
  | ⟨0, _⟩ =>
    show win1_1.index t (0 : Fin 2) * 5000 + 1 * p.val = 5000 * t.val + p.val
    rw [(blockIndex t).2.1.1]; omega
  | ⟨1, _⟩ =>
    show win1_1.index t (1 : Fin 2) * 128 + 1 * a.val = a.val
    rw [(blockIndex t).2.1.2]; omega

/-- The output rows, tiled the same way. -/
theorem read_rows7 (t : Fin cfg1.N) (X : Vec Ideal S50000x128 .f32) (p : Fin 5000) (a : Fin 128) :
    ((cfg1.win 7).blk t).view.read (Elt Ideal) X (ix2 p a)
      = X (ix2 (⟨5000 * t.val + p.val, by have := point_lt t; have := p.isLt; omega⟩ : Fin 50000) a) := by
  rw [View.read_apply]
  refine congrArg X ?_
  funext b
  apply Fin.ext
  match b with
  | ⟨0, _⟩ =>
    show win1_7.index t (0 : Fin 2) * 5000 + 1 * p.val = 5000 * t.val + p.val
    rw [(blockIndex t).2.2.2.2.2.2.2.1]; omega
  | ⟨1, _⟩ =>
    show win1_7.index t (1 : Fin 2) * 128 + 1 * a.val = a.val
    rw [(blockIndex t).2.2.2.2.2.2.2.2]; omega

/-- The first weight table: its one block, at index (0, 0), is the table. -/
theorem read_whole2 (t : Fin cfg1.N) (X : Vec Ideal S128x256 .bf16) (k : Fin 128) (j : Fin 256) :
    ((cfg1.win 2).blk t).view.read (Elt Ideal) X (ix2 k j) = X (ix2 k j) := by
  rw [View.read_apply]
  refine congrArg X ?_
  funext b
  apply Fin.ext
  match b with
  | ⟨0, _⟩ =>
    show win1_2.index t (0 : Fin 2) * 128 + 1 * k.val = k.val
    rw [(blockIndex t).2.2.1.1]; omega
  | ⟨1, _⟩ =>
    show win1_2.index t (1 : Fin 2) * 256 + 1 * j.val = j.val
    rw [(blockIndex t).2.2.1.2]; omega

/-- The second weight table likewise. -/
theorem read_whole3 (t : Fin cfg1.N) (X : Vec Ideal S128x256 .bf16) (k : Fin 128) (j : Fin 256) :
    ((cfg1.win 3).blk t).view.read (Elt Ideal) X (ix2 k j) = X (ix2 k j) := by
  rw [View.read_apply]
  refine congrArg X ?_
  funext b
  apply Fin.ext
  match b with
  | ⟨0, _⟩ =>
    show win1_3.index t (0 : Fin 2) * 128 + 1 * k.val = k.val
    rw [(blockIndex t).2.2.2.1.1]; omega
  | ⟨1, _⟩ =>
    show win1_3.index t (1 : Fin 2) * 256 + 1 * j.val = j.val
    rw [(blockIndex t).2.2.2.1.2]; omega

/-- The first bias row likewise. -/
theorem read_whole4 (t : Fin cfg1.N) (X : Vec Ideal S1x256 .f32) (k : Fin 1) (j : Fin 256) :
    ((cfg1.win 4).blk t).view.read (Elt Ideal) X (ix2 k j) = X (ix2 k j) := by
  rw [View.read_apply]
  refine congrArg X ?_
  funext b
  apply Fin.ext
  match b with
  | ⟨0, _⟩ =>
    show win1_4.index t (0 : Fin 2) * 1 + 1 * k.val = k.val
    rw [(blockIndex t).2.2.2.2.1.1]; omega
  | ⟨1, _⟩ =>
    show win1_4.index t (1 : Fin 2) * 256 + 1 * j.val = j.val
    rw [(blockIndex t).2.2.2.2.1.2]; omega

/-- The second-layer weight table likewise. -/
theorem read_whole5 (t : Fin cfg1.N) (X : Vec Ideal S256x128 .bf16) (k : Fin 256) (j : Fin 128) :
    ((cfg1.win 5).blk t).view.read (Elt Ideal) X (ix2 k j) = X (ix2 k j) := by
  rw [View.read_apply]
  refine congrArg X ?_
  funext b
  apply Fin.ext
  match b with
  | ⟨0, _⟩ =>
    show win1_5.index t (0 : Fin 2) * 256 + 1 * k.val = k.val
    rw [(blockIndex t).2.2.2.2.2.1.1]; omega
  | ⟨1, _⟩ =>
    show win1_5.index t (1 : Fin 2) * 128 + 1 * j.val = j.val
    rw [(blockIndex t).2.2.2.2.2.1.2]; omega

/-- The second bias row likewise. -/
theorem read_whole6 (t : Fin cfg1.N) (X : Vec Ideal S1x128 .f32) (k : Fin 1) (j : Fin 128) :
    ((cfg1.win 6).blk t).view.read (Elt Ideal) X (ix2 k j) = X (ix2 k j) := by
  rw [View.read_apply]
  refine congrArg X ?_
  funext b
  apply Fin.ext
  match b with
  | ⟨0, _⟩ =>
    show win1_6.index t (0 : Fin 2) * 1 + 1 * k.val = k.val
    rw [(blockIndex t).2.2.2.2.2.2.1.1]; omega
  | ⟨1, _⟩ =>
    show win1_6.index t (1 : Fin 2) * 128 + 1 * j.val = j.val
    rw [(blockIndex t).2.2.2.2.2.2.1.2]; omega

/-! ## The node function of a tile is the tile of the node function -/

/-- A row of the result depends only on the same row of the two row-tiled inputs, and on the tables and bias rows:
    families that agree on the row, with equal tables, give the same entry. -/
theorem nodeOut_of_rows {M M' : Nat} (N G : Fin M → Fin 128 → EReal) (N' G' : Fin M' → Fin 128 → EReal)
    (Wn Wg Wn' Wg' : Fin 128 → Fin 256 → EReal) (b1 b1' : Fin 256 → EReal) (W2 W2' : Fin 256 → Fin 128 → EReal)
    (b2 b2' : Fin 128 → EReal) (i : Fin M) (i' : Fin M') (hN : N i = N' i') (hG : G i = G' i')
    (hWn : Wn = Wn') (hWg : Wg = Wg') (hb1 : b1 = b1') (hW2 : W2 = W2') (hb2 : b2 = b2') (q : Fin 128) :
    nodeOut N G Wn Wg b1 W2 b2 i q = nodeOut N' G' Wn' Wg' b1' W2' b2' i' q := by
  subst hWn hWg hb1 hW2 hb2
  exact nodeOut_row N G N' G' Wn Wg b1 W2 b2 i i' hN hG q

/-- WHAT POINT t WRITES BACK is block t of the layer's node function of the entry arrays: the tile's result at row p
    is the node function of row p of the two input blocks, which are rows 5000·t + p of the entry arrays. -/
theorem tile_written (c : Dev nD) (t : Fin cfg1.N) :
    (dat1 (F := Ideal) V c).flushed 7 t
      = ((cfg1.win 7).blk t).view.read (Elt Ideal)
          (arr2 (nodeOut (acc2 (V c main_arg0)) (acc2 (V c main_v33)) (acc2 (V c main_v22)) (acc2 (V c main_v24))
            (row0 (V c main_v28)) (acc2 (V c main_v25)) (row0 (V c main_v29)))) := by
  show (cfg1.win 7).cut (grid1.coords t) ((dat1 (F := Ideal) V c).after 7 t) = _
  rw [after1_7]
  unfold out1_7
  rw [View.canon_unit_zero zeroOff]
  simp only [View.ld_unit_zero (S := S5000x128) zeroOff, View.ld_unit_zero (S := S128x256) zeroOff,
    View.ld_unit_zero (S := S1x256) zeroOff, View.ld_unit_zero (S := S256x128) zeroOff,
    View.ld_unit_zero (S := S1x128) zeroOff]
  funext y
  obtain ⟨p, q, rfl⟩ : ∃ (p : Fin 5000) (q : Fin 128), y = ix2 p q := ⟨y 0, y 1, eq_ix2 y⟩
  refine (NodeTile.node_tile _ _ _ _ _ _ _ p q).trans ?_
  refine Eq.trans ?_ (read_rows7 t _ p q).symm
  refine nodeOut_of_rows _ _ _ _ _ _ _ _ _ _ _ _ _ _ p _ ?_ ?_ ?_ ?_ ?_ ?_ ?_ q
  · funext a; exact read_rows0 t _ p a
  · funext a; exact read_rows1 t _ p a
  · funext k j; exact read_whole2 t _ k j
  · funext k j; exact read_whole3 t _ k j
  · funext j; exact read_whole4 t _ 0 j
  · funext k j; exact read_whole5 t _ k j
  · funext j; exact read_whole6 t _ 0 j

/-- An index of the output array is in point t's block iff each coordinate is in the block's range on its axis. -/
theorem mem_tile (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v34).slice (win1_7.rect t)).set ↔ _
  rw [View.set_slice_whole, Rect.mem_set_unit]
  exact Iff.rfl

/-- The 10 blocks tile the 50000 rows: row r is in the block of point r / 5000, and every point writes back. -/
theorem tiles_cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hT : (i 0).val / 5000 < cfg1.N := by rw [show cfg1.N = 10 from N_1]; omega
  refine ⟨⟨(i 0).val / 5000, hT⟩, flush1_7 _, ?_⟩
  rw [mem_tile]
  have e0 : win1_7.index ⟨(i 0).val / 5000, hT⟩ (0 : Fin 2) = (i 0).val / 5000 := (blockIndex ⟨(i 0).val / 5000, hT⟩).2.2.2.2.2.2.2.1
  have e1 : win1_7.index ⟨(i 0).val / 5000, hT⟩ (1 : Fin 2) = 0 := (blockIndex ⟨(i 0).val / 5000, hT⟩).2.2.2.2.2.2.2.2
  intro a
  match a with
  | ⟨0, _⟩ =>
    show win1_7.index ⟨(i 0).val / 5000, hT⟩ (0 : Fin 2) * 5000 ≤ (i 0).val
      ∧ (i 0).val < win1_7.index ⟨(i 0).val / 5000, hT⟩ (0 : Fin 2) * 5000 + 5000
    rw [e0]; omega
  | ⟨1, _⟩ =>
    show win1_7.index ⟨(i 0).val / 5000, hT⟩ (1 : Fin 2) * 128 ≤ (i 1).val
      ∧ (i 1).val < win1_7.index ⟨(i 0).val / 5000, hT⟩ (1 : Fin 2) * 128 + 128
    rw [e1]; omega

/-- The updated-node array (output window 7) after the region. -/
theorem node_array (c : Dev nD) :
    (dat1 (F := Ideal) V c).arrAt 7 cfg1.N
      = arr2 (nodeOut (acc2 (V c main_arg0)) (acc2 (V c main_v33)) (acc2 (V c main_v22)) (acc2 (V c main_v24))
          (row0 (V c main_v28)) (acc2 (V c main_v25)) (row0 (V c main_v29))) := by
  exact (dat1 (F := Ideal) V c).arrAt_eq_of_cover 7 _ (fun t _ => tile_written V c t) tiles_cover

end Cert.MP.NodeRegion

end
-- ==== Proof.EdgeInputs.lean ====
import proofs.«163415_j16320875725329_2_alg».proof.Proof.Gen.KernelIdeal.Frame
import proofs.«163415_j16320875725329_2_alg».proof.Proof.Rows
import Idealize.ShloMosaic.Lib.ValueIdx
import Idealize.ShloMosaic.Lib.ValueLayout
import Idealize.ShloMosaic.Lib.Pipeline.Value
import Idealize.ShloMosaic.Lib.StableHlo.Run

/-!
What the edge region of the idealized kernel finds in its windows' arrays, in terms of @main's arguments.

Before the region the host gathers the senders' and the receivers' rows of the node table, cuts the first edge weight
table into its three slabs of 128 rows, changes the weights' float format (the identity on extended reals) and lays
each bias out as one row; the edge array is an argument as launched.
-/

set_option maxRecDepth 16384

noncomputable section

namespace Cert.MP.EdgeInputs

open Idealize.ShloMosaic Idealize.ShloMosaic.TcCoe Idealize.ShloMosaic.ValueIdx Idealize.SL.Sem
open Cert.KernelIdeal Cert.KernelIdeal.Gen Cert.MP

/-! ## What the host's operations before the edge region leave in each buffer, over any launch contents

Each buffer the edge region reads is written by at most two of the host's operations, and each of those reads arguments
that no operation writes; so the buffer's contents after all of them is that short composition applied to the launch
contents of the arguments. Stated for an arbitrary valuation `W` of the buffers at launch. -/

/-- A slab of 128 rows cut from the table of 384 rows at row `off`, then the change of float format. -/
def cut (off : Nat) (h : S384x256.Slices ![off, 0] S128x256)
    (x : (⟨S384x256, .f32⟩ : BufTy).Contents (Elt Ideal)) : (⟨S128x256, .bf16⟩ : BufTy).Contents (Elt Ideal) :=
  truncf (F := Ideal) .bf16 (extractStridedSlice S128x256 ![off, 0] x h) bitsLt_bf16_f32

/-- The change of float format alone. -/
def narrow (x : (⟨S256x128, .f32⟩ : BufTy).Contents (Elt Ideal)) : (⟨S256x128, .bf16⟩ : BufTy).Contents (Elt Ideal) :=
  truncf (F := Ideal) .bf16 x bitsLt_bf16_f32

/-- A vector of 256 laid out as one row. -/
def asRow256 (x : (⟨S256, .f32⟩ : BufTy).Contents (Elt Ideal)) : (⟨S1x256, .f32⟩ : BufTy).Contents (Elt Ideal) :=
  shapeCast S1x256 x shapeCasts_S256_S1x256

/-- A vector of 128 laid out as one row. -/
def asRow128 (x : (⟨S128, .f32⟩ : BufTy).Contents (Elt Ideal)) : (⟨S1x128, .f32⟩ : BufTy).Contents (Elt Ideal) :=
  shapeCast S1x128 x shapeCasts_S128_S1x128

/-- The edge array is written by no host operation. -/
theorem read_arg1 (W : Valuation τ sig (Elt Ideal)) :
    StableHlo.after (hostOps0 (F := Ideal)) W (Proc.devRef .tc main_arg1) = W (Proc.devRef .tc main_arg1) := by
  after_results_simp

/-- The senders' weight slab: rows 0 … 127 of the first edge weight table. -/
theorem read_v15 (W : Valuation τ sig (Elt Ideal)) :
    StableHlo.after (hostOps0 (F := Ideal)) W (Proc.devRef .tc main_v15)
      = cut 0 slices_S384x256_S128x256_0_0 (W (Proc.devRef .tc main_arg4)) := by
  after_results_simp
  rfl

/-- The receivers' weight slab: rows 128 … 255. -/
theorem read_v17 (W : Valuation τ sig (Elt Ideal)) :
    StableHlo.after (hostOps0 (F := Ideal)) W (Proc.devRef .tc main_v17)
      = cut 128 slices_S384x256_S128x256_128_0 (W (Proc.devRef .tc main_arg4)) := by
  after_results_simp
  rfl

/-- The edges' weight slab: rows 256 … 383. -/
theorem read_v19 (W : Valuation τ sig (Elt Ideal)) :
    StableHlo.after (hostOps0 (F := Ideal)) W (Proc.devRef .tc main_v19)
      = cut 256 slices_S384x256_S128x256_256_0 (W (Proc.devRef .tc main_arg4)) := by
  after_results_simp
  rfl

/-- The second edge weight table: the argument in the narrower float format. -/
theorem read_v20 (W : Valuation τ sig (Elt Ideal)) :
    StableHlo.after (hostOps0 (F := Ideal)) W (Proc.devRef .tc main_v20)
      = narrow (W (Proc.devRef .tc main_arg6)) := by
  after_results_simp
  rfl

/-- The first bias as one row. -/
theorem read_v26 (W : Valuation τ sig (Elt Ideal)) :
    StableHlo.after (hostOps0 (F := Ideal)) W (Proc.devRef .tc main_v26)
      = asRow256 (W (Proc.devRef .tc main_arg5)) := by
  after_results_simp
  rfl

/-- The second bias as one row. -/
theorem read_v27 (W : Valuation τ sig (Elt Ideal)) :
    StableHlo.after (hostOps0 (F := Ideal)) W (Proc.devRef .tc main_v27)
      = asRow128 (W (Proc.devRef .tc main_arg7)) := by
  after_results_simp
  rfl

/-! ## The same contents entry by entry -/

/-- The cut slab at (row, column) is the table at (offset + row, column): the change of float format is the identity
    on extended reals, and the slice reads the table `off` rows further down, the columns unmoved. -/
theorem cut_apply (off : Nat) (hoff : off + 128 ≤ 384) (h : S384x256.Slices ![off, 0] S128x256)
    (x : (⟨S384x256, .f32⟩ : BufTy).Contents (Elt Ideal)) (a : Fin 128) (k : Fin 256) :
    cut off h x (ix2 a k) = x (ix2 ⟨off + a.val, by omega⟩ k) := by
  show extractStridedSlice S128x256 ![off, 0] x h (ix2 a k) = _
  exact extractStridedSlice_apply ![off, 0] x h (ix2 a k) (ix2 (⟨off + a.val, by omega⟩ : Fin 384) k)
    (fun b => match b with | ⟨0, _⟩ => rfl | ⟨1, _⟩ => (Nat.zero_add _).symm)

/-- The one row of a laid-out vector of 256, at column `k`, is the vector at `k`. -/
theorem asRow256_apply (x : (⟨S256, .f32⟩ : BufTy).Contents (Elt Ideal)) (k : Fin 256) :
    asRow256 x (ix2 (0 : Fin 1) k) = x (ix1 k) :=
  shapeCast_a_1a_apply x shapeCasts_S256_S1x256 0 k

/-- The one row of a laid-out vector of 128, at column `k`, is the vector at `k`. -/
theorem asRow128_apply (x : (⟨S128, .f32⟩ : BufTy).Contents (Elt Ideal)) (k : Fin 128) :
    asRow128 x (ix2 (0 : Fin 1) k) = x (ix1 k) :=
  shapeCast_a_1a_apply x shapeCasts_S128_S1x128 0 k

/-- The rows of the node table an index vector names (a negative index counted from the table's end), as the host
    gathers them. -/
def pick (x0 : (⟨S50000x128, .f32⟩ : BufTy).Contents (Elt Ideal)) (x : (⟨S640000, .i32⟩ : BufTy).Contents (Elt Ideal)) :
    (⟨S640000x128, .f32⟩ : BufTy).Contents (Elt Ideal) :=
  Host.gather gather_S50000x128_S640000x1_S640000x128_1_0_n_n_0_1_1128 x0
    (broadcastInDim S640000x1 ![0] bcast_S640000_S640000x1_0
      (select (cmpi .slt x (broadcastInDim S640000 ![] bcast_S_S640000 (constantI S_ 32 0#32)))
        (addi x (broadcastInDim S640000 ![] bcast_S_S640000 (constantI S_ 32 50000#32))) x))

/-- The senders' rows: the gather of the node table at the first index vector, its negative entries wrapped. -/
theorem read_v6 (W : Valuation τ sig (Elt Ideal)) :
    StableHlo.after (hostOps0 (F := Ideal)) W (Proc.devRef .tc main_v6)
      = pick (W (Proc.devRef .tc main_arg0)) (W (Proc.devRef .tc main_arg2)) := by
  after_results_simp
  rfl

/-- The receivers' rows: the same gather at the second index vector. -/
theorem read_v13 (W : Valuation τ sig (Elt Ideal)) :
    StableHlo.after (hostOps0 (F := Ideal)) W (Proc.devRef .tc main_v13)
      = pick (W (Proc.devRef .tc main_arg0)) (W (Proc.devRef .tc main_arg3)) := by
  after_results_simp
  rfl

/-! ## At the launch contents: each buffer at the edge region's entry, in @main's arguments

The contents at the region's entry are the host's operations applied to the launch contents, and the launch contents
of an argument's buffer is the argument. -/

variable (m : (ℓ : Loc nD τ sig) → Buf (Elt Ideal) ℓ) (ρ : Dev nD → PrngReg)

theorem in0_senders (c : Dev nD) : V1 m ρ c main_v6 = pick (m ((c.tc : Thread nD τ).loc main_arg0)) (m ((c.tc : Thread nD τ).loc main_arg2)) :=
  read_v6 (W0 m ρ c)
theorem in0_receivers (c : Dev nD) : V1 m ρ c main_v13 = pick (m ((c.tc : Thread nD τ).loc main_arg0)) (m ((c.tc : Thread nD τ).loc main_arg3)) :=
  read_v13 (W0 m ρ c)
theorem in0_edges (c : Dev nD) : V1 m ρ c main_arg1 = (m ((c.tc : Thread nD τ).loc main_arg1)) :=
  read_arg1 (W0 m ρ c)
theorem in0_Ws (c : Dev nD) : acc2 (V1 m ρ c main_v15) = slab (m ((c.tc : Thread nD τ).loc main_arg4)) 0 (by decide) := by
  funext a k
  refine (congrFun (read_v15 (W0 m ρ c)) (ix2 a k)).trans ?_
  exact cut_apply 0 (by decide) _ _ a k
theorem in0_Wr (c : Dev nD) : acc2 (V1 m ρ c main_v17) = slab (m ((c.tc : Thread nD τ).loc main_arg4)) 128 (by decide) := by
  funext a k
  refine (congrFun (read_v17 (W0 m ρ c)) (ix2 a k)).trans ?_
  exact cut_apply 128 (by decide) _ _ a k
theorem in0_We (c : Dev nD) : acc2 (V1 m ρ c main_v19) = slab (m ((c.tc : Thread nD τ).loc main_arg4)) 256 (by decide) := by
  funext a k
  refine (congrFun (read_v19 (W0 m ρ c)) (ix2 a k)).trans ?_
  exact cut_apply 256 (by decide) _ _ a k
theorem in0_b1 (c : Dev nD) : row0 (V1 m ρ c main_v26) = vec (m ((c.tc : Thread nD τ).loc main_arg5)) := by
  funext k
  refine (congrFun (read_v26 (W0 m ρ c)) (ix2 (0 : Fin 1) k)).trans ?_
  exact asRow256_apply _ k
theorem in0_W2 (c : Dev nD) : acc2 (V1 m ρ c main_v20) = acc2 (m ((c.tc : Thread nD τ).loc main_arg6)) := by
  funext a k
  exact congrFun (read_v20 (W0 m ρ c)) (ix2 a k)
theorem in0_b2 (c : Dev nD) : row0 (V1 m ρ c main_v27) = vec (m ((c.tc : Thread nD τ).loc main_arg7)) := by
  funext k
  refine (congrFun (read_v27 (W0 m ρ c)) (ix2 (0 : Fin 1) k)).trans ?_
  exact asRow128_apply _ k

end Cert.MP.EdgeInputs

end
-- ==== Proof.NodeInputs.lean ====
import proofs.«163415_j16320875725329_2_alg».proof.Proof.Gen.KernelIdeal.Frame
import proofs.«163415_j16320875725329_2_alg».proof.Proof.Rows
import Idealize.ShloMosaic.Lib.ValueIdx
import Idealize.ShloMosaic.Lib.ValueLayout
import Idealize.ShloMosaic.Lib.Pipeline.Value
import Idealize.ShloMosaic.Lib.StableHlo.Run

/-!
What the node region of the idealized kernel finds in its windows' arrays, in terms of @main's arguments and of the
edge region's message array.

Between the regions the host sums the messages into their receivers' rows, from zero. The node table is an argument as
launched; the first node weight table's two slabs of 128 rows, the second weight table (float formats changed: the
identity on extended reals) and the two biases laid out as rows were prepared before the edge region, and nothing
since has written them.
-/

set_option maxRecDepth 16384

noncomputable section

namespace Cert.MP.NodeInputs

open Idealize.ShloMosaic Idealize.ShloMosaic.TcCoe Idealize.ShloMosaic.ValueIdx Idealize.SL.Sem
open Cert.KernelIdeal Cert.KernelIdeal.Gen Cert.MP

/-- The messages summed into the rows their index vector names, from zero, as the host's scatter-add does it. -/
def aggregate (idx : (⟨S640000, .i32⟩ : BufTy).Contents (Elt Ideal)) (u : (⟨S640000x128, .f32⟩ : BufTy).Contents (Elt Ideal)) :
    (⟨S50000x128, .f32⟩ : BufTy).Contents (Elt Ideal) :=
  Host.scatterAdd scatter_S50000x128_S640000x1_S640000x128_1_0_0_1
    (broadcastInDim S50000x128 ![] bcast_S_S50000x128 (constant (F := Ideal) S_ .f32 0x00000000#32))
    (broadcastInDim S640000x1 ![0] bcast_S640000_S640000x1_0 idx) u

/-! ## The host's preparations read at an entry -/

/-- The 128 rows of the first node weight table from row 0, float format changed. -/
def cut0 (x : (⟨S256x256, .f32⟩ : BufTy).Contents (Elt Ideal)) : (⟨S128x256, .bf16⟩ : BufTy).Contents (Elt Ideal) :=
  (truncf .bf16 (extractStridedSlice S128x256 ![0, 0] x slices_S256x256_S128x256_0_0) bitsLt_bf16_f32 : FVec Ideal S128x256 .bf16)

/-- The 128 rows of the first node weight table from row 128, float format changed. -/
def cut128 (x : (⟨S256x256, .f32⟩ : BufTy).Contents (Elt Ideal)) : (⟨S128x256, .bf16⟩ : BufTy).Contents (Elt Ideal) :=
  (truncf .bf16 (extractStridedSlice S128x256 ![128, 0] x slices_S256x256_S128x256_128_0) bitsLt_bf16_f32 : FVec Ideal S128x256 .bf16)

/-- The second weight table, float format changed. -/
def conv (x : (⟨S256x128, .f32⟩ : BufTy).Contents (Elt Ideal)) : (⟨S256x128, .bf16⟩ : BufTy).Contents (Elt Ideal) :=
  (truncf .bf16 x bitsLt_bf16_f32 : FVec Ideal S256x128 .bf16)

/-- A vector of 256 laid out as one row. -/
def lay256 (x : (⟨S256, .f32⟩ : BufTy).Contents (Elt Ideal)) : (⟨S1x256, .f32⟩ : BufTy).Contents (Elt Ideal) :=
  shapeCast S1x256 x shapeCasts_S256_S1x256

/-- A vector of 128 laid out as one row. -/
def lay128 (x : (⟨S128, .f32⟩ : BufTy).Contents (Elt Ideal)) : (⟨S1x128, .f32⟩ : BufTy).Contents (Elt Ideal) :=
  shapeCast S1x128 x shapeCasts_S128_S1x128

/-- A slab of a cut table at (row a, column k) is the table at (offset + a, k); the format change is the identity. -/
theorem acc2_cut0 (x : (⟨S256x256, .f32⟩ : BufTy).Contents (Elt Ideal)) : acc2 (cut0 x) = slab x 0 (by decide) := by
  funext a k
  exact extractStridedSlice_apply (s := S256x256) (t := S128x256) ![0, 0] x slices_S256x256_S128x256_0_0 (ix2 a k)
    (ix2 (⟨0 + a.val, by have := a.isLt; omega⟩ : Fin 256) k)
    (fun d => by match d with | ⟨0, _⟩ => rfl | ⟨1, _⟩ => exact (Nat.zero_add _).symm)

theorem acc2_cut128 (x : (⟨S256x256, .f32⟩ : BufTy).Contents (Elt Ideal)) : acc2 (cut128 x) = slab x 128 (by decide) := by
  funext a k
  exact extractStridedSlice_apply (s := S256x256) (t := S128x256) ![128, 0] x slices_S256x256_S128x256_128_0 (ix2 a k)
    (ix2 (⟨128 + a.val, by have := a.isLt; omega⟩ : Fin 256) k)
    (fun d => by match d with | ⟨0, _⟩ => rfl | ⟨1, _⟩ => exact (Nat.zero_add _).symm)

theorem acc2_conv (x : (⟨S256x128, .f32⟩ : BufTy).Contents (Elt Ideal)) : acc2 (conv x) = acc2 x := rfl

/-- The one row of a vector laid out as a row is the vector. -/
theorem row0_lay256 (x : (⟨S256, .f32⟩ : BufTy).Contents (Elt Ideal)) : row0 (lay256 x) = vec x := by
  funext k
  refine (shapeCast_addUnit_apply ![256] x shapeCasts_S256_S1x256 (ix2 (0 : Fin 1) k)).trans ?_
  exact congrArg x (funext fun a => by match a with | ⟨0, _⟩ => rfl)

theorem row0_lay128 (x : (⟨S128, .f32⟩ : BufTy).Contents (Elt Ideal)) : row0 (lay128 x) = vec x := by
  funext k
  refine (shapeCast_addUnit_apply ![128] x shapeCasts_S128_S1x128 (ix2 (0 : Fin 1) k)).trans ?_
  exact congrArg x (funext fun a => by match a with | ⟨0, _⟩ => rfl)

/-! ## What the host's two stretches leave in a buffer, over any contents at the stretch's start -/

section Reads

variable (W : Valuation τ sig (Elt Ideal))

theorem read0_v22 : StableHlo.after (hostOps0 (F := Ideal)) W (Proc.devRef .tc main_v22) = cut0 (W (Proc.devRef .tc main_arg8)) := by
  after_results_simp; rfl
theorem read0_v24 : StableHlo.after (hostOps0 (F := Ideal)) W (Proc.devRef .tc main_v24) = cut128 (W (Proc.devRef .tc main_arg8)) := by
  after_results_simp; rfl
theorem read0_v25 : StableHlo.after (hostOps0 (F := Ideal)) W (Proc.devRef .tc main_v25) = conv (W (Proc.devRef .tc main_arg10)) := by
  after_results_simp; rfl
theorem read0_v28 : StableHlo.after (hostOps0 (F := Ideal)) W (Proc.devRef .tc main_v28) = lay256 (W (Proc.devRef .tc main_arg9)) := by
  after_results_simp; rfl
theorem read0_v29 : StableHlo.after (hostOps0 (F := Ideal)) W (Proc.devRef .tc main_v29) = lay128 (W (Proc.devRef .tc main_arg11)) := by
  after_results_simp; rfl

/-- The second stretch's last operation sums the messages into the rows the receivers' index vector names. -/
theorem read1_v33 : StableHlo.after (hostOps1 (F := Ideal)) W (Proc.devRef .tc main_v33)
    = aggregate (W (Proc.devRef .tc main_arg3)) (W (Proc.devRef .tc main_v30_0)) := by
  after_results_simp; rfl

/-- The second stretch writes four buffers; any other keeps its contents. -/
theorem keep1 (b : Ref sig .tc) (h0 : b ≠ main_cst) (h1 : b ≠ main_v31) (h2 : b ≠ main_v32) (h3 : b ≠ main_v33) :
    StableHlo.after (hostOps1 (F := Ideal)) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1, StableHlo.devRef_ne_of_ne h2, StableHlo.devRef_ne_of_ne h3⟩))

/-- The first stretch writes neither the node table nor the receivers' index vector. -/
theorem keep0_arg0 : StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg3 : StableHlo.after (hostOps0 (F := Ideal)) W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Reads

variable (m : (ℓ : Loc nD τ sig) → Buf (Elt Ideal) ℓ) (ρ : Dev nD → PrngReg)

/-- A buffer the second stretch does not write and the edge region does not stage holds, when the node region is
    entered, what the first stretch left in it. -/
theorem back31 (c : Dev nD) (b : Ref sig .tc) (h0 : b ≠ main_cst) (h1 : b ≠ main_v31) (h2 : b ≠ main_v32) (h3 : b ≠ main_v33)
    (hb : ∀ w, Pipeline.arrRef spec0 w ≠ b) :
    W3 m ρ c (Proc.devRef .tc b) = StableHlo.after (hostOps0 (F := Ideal)) (W0 m ρ c) (Proc.devRef .tc b) :=
  (keep1 (W2 m ρ c) b h0 h1 h2 h3).trans (W2_of_ne m ρ c b hb)

theorem in1_nodes (c : Dev nD) : V3 m ρ c main_arg0 = (m ((c.tc : Thread nD τ).loc main_arg0)) :=
  (back31 m ρ c main_arg0 (by decide) (by decide) (by decide) (by decide) (by decide)).trans (keep0_arg0 (W0 m ρ c))
theorem in1_agg (c : Dev nD) :
    V3 m ρ c main_v33 = aggregate (m ((c.tc : Thread nD τ).loc main_arg3)) ((dat0 (V1 m ρ) c).arrAt 9 cfg0.N) := by
  have e3 : W2 m ρ c (Proc.devRef .tc main_arg3) = m ((c.tc : Thread nD τ).loc main_arg3) :=
    (W2_of_ne m ρ c main_arg3 (by decide)).trans (keep0_arg3 (W0 m ρ c))
  have e9 : W2 m ρ c (Proc.devRef .tc main_v30_0) = (dat0 (V1 m ρ) c).arrAt 9 cfg0.N := W2_arr m ρ c 9
  refine (read1_v33 (W2 m ρ c)).trans ?_
  rw [e3, e9]
theorem in1_Wn (c : Dev nD) : acc2 (V3 m ρ c main_v22) = slab (m ((c.tc : Thread nD τ).loc main_arg8)) 0 (by decide) := by
  refine Eq.trans (congrArg acc2 ?_) (acc2_cut0 (m ((c.tc : Thread nD τ).loc main_arg8)))
  exact (back31 m ρ c main_v22 (by decide) (by decide) (by decide) (by decide) (by decide)).trans (read0_v22 (W0 m ρ c))
theorem in1_Wg (c : Dev nD) : acc2 (V3 m ρ c main_v24) = slab (m ((c.tc : Thread nD τ).loc main_arg8)) 128 (by decide) := by
  refine Eq.trans (congrArg acc2 ?_) (acc2_cut128 (m ((c.tc : Thread nD τ).loc main_arg8)))
  exact (back31 m ρ c main_v24 (by decide) (by decide) (by decide) (by decide) (by decide)).trans (read0_v24 (W0 m ρ c))
theorem in1_b1 (c : Dev nD) : row0 (V3 m ρ c main_v28) = vec (m ((c.tc : Thread nD τ).loc main_arg9)) := by
  refine Eq.trans (congrArg row0 ?_) (row0_lay256 (m ((c.tc : Thread nD τ).loc main_arg9)))
  exact (back31 m ρ c main_v28 (by decide) (by decide) (by decide) (by decide) (by decide)).trans (read0_v28 (W0 m ρ c))
theorem in1_W2 (c : Dev nD) : acc2 (V3 m ρ c main_v25) = acc2 (m ((c.tc : Thread nD τ).loc main_arg10)) := by
  refine Eq.trans (congrArg acc2 ?_) (acc2_conv (m ((c.tc : Thread nD τ).loc main_arg10)))
  exact (back31 m ρ c main_v25 (by decide) (by decide) (by decide) (by decide) (by decide)).trans (read0_v25 (W0 m ρ c))
theorem in1_b2 (c : Dev nD) : row0 (V3 m ρ c main_v29) = vec (m ((c.tc : Thread nD τ).loc main_arg11)) := by
  refine Eq.trans (congrArg row0 ?_) (row0_lay128 (m ((c.tc : Thread nD τ).loc main_arg11)))
  exact (back31 m ρ c main_v29 (by decide) (by decide) (by decide) (by decide) (by decide)).trans (read0_v29 (W0 m ρ c))

end Cert.MP.NodeInputs

end
-- ==== Proof.RefValue.lean ====
import proofs.«163415_j16320875725329_2_alg».proof.Defs
import proofs.«163415_j16320875725329_2_alg».proof.Proof.RefRead
import proofs.«163415_j16320875725329_2_alg».proof.Proof.Rows
import Idealize.ShloMosaic.Lib.ValueIdx
import Idealize.ShloMosaic.Lib.ValueLayout
import Idealize.ShloMosaic.Lib.Pipeline.Value
import Idealize.ShloMosaic.PureOps.Ideal.Laws

/-!
The reference's three stages that matter, entry by entry, as the message-passing layer's functions.

The reference joins (sender row, receiver row, edge row) into one row of 384 and contracts it against the whole first
weight table; the sum over the 384 columns is the sum of the sums over its three ranges of 128, each against its own
slab of the table (and likewise 256 = 128 + 128 for a node). Its cube is (x·x)·x. The gathers and the scatter-add are
carried as they stand: the layer's functions take the gathered and the aggregated arrays as they are.
-/

noncomputable section

namespace Cert.MP.RefValue

open Idealize.ShloMosaic Idealize.ShloMosaic.ValueIdx Cert.ReferenceIdeal Cert.ReferenceIdeal.ReadP Cert.MP

/-! ## A joined row, read range by range

A row of the joined array is its pieces' rows laid end to end: column `off + a` of the joined row, for `off` the
extents of the pieces before piece `n`, is column `a` of piece `n`'s row. -/

/-- Columns 0 … 127 of a row of three joined arrays: the first array's row. -/
theorem join3_first (A B C : FVec Ideal S640000x128 .f32)
    (h : Shape.Concatenates [S640000x128, S640000x128, S640000x128] S640000x384 1) (r : Fin 640000) (a : Fin 128) :
    concatenate S640000x384 1 [⟨S640000x128, A⟩, ⟨S640000x128, B⟩, ⟨S640000x128, C⟩] h (ix2 r (⟨0 + a.val, by omega⟩ : Fin 384)) = A (ix2 r a) := by
  refine concatenate_apply_piece (t := S640000x384) (1 : Fin 2)
    ([⟨S640000x128, A⟩, ⟨S640000x128, B⟩, ⟨S640000x128, C⟩] : List ((s : Shape) × (s.Idx → EReal))) h _ 0 (by show (0 : Nat) < 3; omega)
    S640000x128 A rfl rfl 0 rfl (ix2 r a) ?_ ?_
  · intro b hb
    match b, hb with
    | ⟨0, _⟩, _ => rfl
    | ⟨1, _⟩, hb => exact absurd rfl hb
  · show 0 + a.val = 0 + a.val
    rfl

/-- Columns 128 … 255 of a row of three joined arrays: the second array's row. -/
theorem join3_second (A B C : FVec Ideal S640000x128 .f32)
    (h : Shape.Concatenates [S640000x128, S640000x128, S640000x128] S640000x384 1) (r : Fin 640000) (a : Fin 128) :
    concatenate S640000x384 1 [⟨S640000x128, A⟩, ⟨S640000x128, B⟩, ⟨S640000x128, C⟩] h (ix2 r (⟨128 + a.val, by omega⟩ : Fin 384)) = B (ix2 r a) := by
  refine concatenate_apply_piece (t := S640000x384) (1 : Fin 2)
    ([⟨S640000x128, A⟩, ⟨S640000x128, B⟩, ⟨S640000x128, C⟩] : List ((s : Shape) × (s.Idx → EReal))) h _ 1 (by show (1 : Nat) < 3; omega)
    S640000x128 B rfl rfl 128 rfl (ix2 r a) ?_ ?_
  · intro b hb
    match b, hb with
    | ⟨0, _⟩, _ => rfl
    | ⟨1, _⟩, hb => exact absurd rfl hb
  · show 128 + a.val = 128 + a.val
    rfl

/-- Columns 256 … 383 of a row of three joined arrays: the third array's row. -/
theorem join3_third (A B C : FVec Ideal S640000x128 .f32)
    (h : Shape.Concatenates [S640000x128, S640000x128, S640000x128] S640000x384 1) (r : Fin 640000) (a : Fin 128) :
    concatenate S640000x384 1 [⟨S640000x128, A⟩, ⟨S640000x128, B⟩, ⟨S640000x128, C⟩] h (ix2 r (⟨256 + a.val, by omega⟩ : Fin 384)) = C (ix2 r a) := by
  refine concatenate_apply_piece (t := S640000x384) (1 : Fin 2)
    ([⟨S640000x128, A⟩, ⟨S640000x128, B⟩, ⟨S640000x128, C⟩] : List ((s : Shape) × (s.Idx → EReal))) h _ 2 (by show (2 : Nat) < 3; omega)
    S640000x128 C rfl rfl 256 rfl (ix2 r a) ?_ ?_
  · intro b hb
    match b, hb with
    | ⟨0, _⟩, _ => rfl
    | ⟨1, _⟩, hb => exact absurd rfl hb
  · show 256 + a.val = 256 + a.val
    rfl

/-- Columns 0 … 127 of a row of two joined arrays: the first array's row. -/
theorem join2_first (A B : FVec Ideal S50000x128 .f32)
    (h : Shape.Concatenates [S50000x128, S50000x128] S50000x256 1) (r : Fin 50000) (a : Fin 128) :
    concatenate S50000x256 1 [⟨S50000x128, A⟩, ⟨S50000x128, B⟩] h (ix2 r (⟨0 + a.val, by omega⟩ : Fin 256)) = A (ix2 r a) := by
  refine concatenate_apply_piece (t := S50000x256) (1 : Fin 2)
    ([⟨S50000x128, A⟩, ⟨S50000x128, B⟩] : List ((s : Shape) × (s.Idx → EReal))) h _ 0 (by show (0 : Nat) < 2; omega)
    S50000x128 A rfl rfl 0 rfl (ix2 r a) ?_ ?_
  · intro b hb
    match b, hb with
    | ⟨0, _⟩, _ => rfl
    | ⟨1, _⟩, hb => exact absurd rfl hb
  · show 0 + a.val = 0 + a.val
    rfl

/-- Columns 128 … 255 of a row of two joined arrays: the second array's row. -/
theorem join2_second (A B : FVec Ideal S50000x128 .f32)
    (h : Shape.Concatenates [S50000x128, S50000x128] S50000x256 1) (r : Fin 50000) (a : Fin 128) :
    concatenate S50000x256 1 [⟨S50000x128, A⟩, ⟨S50000x128, B⟩] h (ix2 r (⟨128 + a.val, by omega⟩ : Fin 256)) = B (ix2 r a) := by
  refine concatenate_apply_piece (t := S50000x256) (1 : Fin 2)
    ([⟨S50000x128, A⟩, ⟨S50000x128, B⟩] : List ((s : Shape) × (s.Idx → EReal))) h _ 1 (by show (1 : Nat) < 2; omega)
    S50000x128 B rfl rfl 128 rfl (ix2 r a) ?_ ?_
  · intro b hb
    match b, hb with
    | ⟨0, _⟩, _ => rfl
    | ⟨1, _⟩, hb => exact absurd rfl hb
  · show 128 + a.val = 128 + a.val
    rfl

/-! ## Where the contractions and the bias broadcasts read -/

/-- Entry (r, k) of the edges' first contraction reads row r of the joined array at column a … -/
theorem lidx15 (r : Fin 640000) (k : Fin 256) (a : Fin 384) : lidx_main_v15 (ix2 r k) a = ix2 r a := funext fun d => Fin.ext (by match d with | ⟨0, _⟩ => rfl | ⟨1, _⟩ => rfl)
/-- … against row a of the first weight table at column k. -/
theorem ridx15 (r : Fin 640000) (k : Fin 256) (a : Fin 384) : ridx_main_v15 (ix2 r k) a = ix2 a k := funext fun d => Fin.ext (by match d with | ⟨0, _⟩ => rfl | ⟨1, _⟩ => rfl)
/-- Entry (r, q) of the edges' second contraction reads row r of the hidden array at column k … -/
theorem lidx32 (r : Fin 640000) (q : Fin 128) (k : Fin 256) : lidx_main_v32 (ix2 r q) k = ix2 r k := funext fun d => Fin.ext (by match d with | ⟨0, _⟩ => rfl | ⟨1, _⟩ => rfl)
/-- … against row k of the second weight table at column q. -/
theorem ridx32 (r : Fin 640000) (q : Fin 128) (k : Fin 256) : ridx_main_v32 (ix2 r q) k = ix2 k q := funext fun d => Fin.ext (by match d with | ⟨0, _⟩ => rfl | ⟨1, _⟩ => rfl)
/-- The first bias, broadcast down the rows: entry (r, k) reads position k. -/
theorem bias17 (r : Fin 640000) (k : Fin 256) : idx_main_v16 (idx_main_v17 (ix2 r k)) = ix1 k := funext fun d => Fin.ext (by match d with | ⟨0, _⟩ => rfl)
/-- The second bias, broadcast down the rows: entry (r, q) reads position q. -/
theorem bias34 (r : Fin 640000) (q : Fin 128) : idx_main_v33 (idx_main_v34 (ix2 r q)) = ix1 q := funext fun d => Fin.ext (by match d with | ⟨0, _⟩ => rfl)
/-- The same four reads and two broadcasts for the nodes. -/
theorem lidx40 (r : Fin 50000) (k : Fin 256) (a : Fin 256) : lidx_main_v40 (ix2 r k) a = ix2 r a := funext fun d => Fin.ext (by match d with | ⟨0, _⟩ => rfl | ⟨1, _⟩ => rfl)
theorem ridx40 (r : Fin 50000) (k : Fin 256) (a : Fin 256) : ridx_main_v40 (ix2 r k) a = ix2 a k := funext fun d => Fin.ext (by match d with | ⟨0, _⟩ => rfl | ⟨1, _⟩ => rfl)
theorem lidx57 (r : Fin 50000) (q : Fin 128) (k : Fin 256) : lidx_main_v57 (ix2 r q) k = ix2 r k := funext fun d => Fin.ext (by match d with | ⟨0, _⟩ => rfl | ⟨1, _⟩ => rfl)
theorem ridx57 (r : Fin 50000) (q : Fin 128) (k : Fin 256) : ridx_main_v57 (ix2 r q) k = ix2 k q := funext fun d => Fin.ext (by match d with | ⟨0, _⟩ => rfl | ⟨1, _⟩ => rfl)
theorem bias42 (r : Fin 50000) (k : Fin 256) : idx_main_v41 (idx_main_v42 (ix2 r k)) = ix1 k := funext fun d => Fin.ext (by match d with | ⟨0, _⟩ => rfl)
theorem bias59 (r : Fin 50000) (q : Fin 128) : idx_main_v58 (idx_main_v59 (ix2 r q)) = ix1 q := funext fun d => Fin.ext (by match d with | ⟨0, _⟩ => rfl)

/-! ## The edges' perceptron -/

/-- The joined array %14 on its three column ranges: the gathered sender rows, the gathered receiver rows, the edge rows. -/
theorem joined_sender (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (r : Fin 640000) (a : Fin 128) :
    val_main_v14 (F := Ideal) x0 x1 x2 x3 (ix2 r (⟨0 + a.val, by omega⟩ : Fin 384)) = val_main_v6 (F := Ideal) x0 x2 (ix2 r a) := by
  unfold val_main_v14
  exact join3_first _ _ _ _ r a
theorem joined_receiver (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (r : Fin 640000) (a : Fin 128) :
    val_main_v14 (F := Ideal) x0 x1 x2 x3 (ix2 r (⟨128 + a.val, by omega⟩ : Fin 384)) = val_main_v13 (F := Ideal) x0 x3 (ix2 r a) := by
  unfold val_main_v14
  exact join3_second _ _ _ _ r a
theorem joined_edge (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (r : Fin 640000) (a : Fin 128) :
    val_main_v14 (F := Ideal) x0 x1 x2 x3 (ix2 r (⟨256 + a.val, by omega⟩ : Fin 384)) = x1 (ix2 r a) := by
  unfold val_main_v14
  exact join3_third _ _ _ _ r a

/-- The first layer before the activation, stage %18 at (r, k): the contraction of the joined row against the whole
    table is the three contractions of its ranges against the table's slabs, and the bias. -/
theorem edge_pre (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (r : Fin 640000) (k : Fin 256) :
    val_main_v18 (F := Ideal) x0 x1 x2 x3 x4 x5 (ix2 r k)
      = (((∑ a : Fin 128, acc2 (val_main_v6 (F := Ideal) x0 x2) r a * slab x4 0 (by decide) a k)
          + (∑ a : Fin 128, acc2 (val_main_v13 (F := Ideal) x0 x3) r a * slab x4 128 (by decide) a k))
          + (∑ a : Fin 128, acc2 x1 r a * slab x4 256 (by decide) a k)) + vec x5 k := by
  rw [val_main_v18_apply, val_main_v15_apply, val_main_v17_apply, val_main_v16_apply, bias17]
  refine congrArg₂ (· + ·) ?_ rfl
  refine (sum_384 _).trans ?_
  refine congrArg₂ (· + ·) (congrArg₂ (· + ·) ?_ ?_) ?_
  · refine Finset.sum_congr rfl fun a _ => ?_
    rw [lidx15, ridx15, joined_sender]
    rfl
  · refine Finset.sum_congr rfl fun a _ => ?_
    rw [lidx15, ridx15, joined_receiver]
    rfl
  · refine Finset.sum_congr rfl fun a _ => ?_
    rw [lidx15, ridx15, joined_edge]
    rfl

/-- The activation, stages %19 … %31 at an entry: GELU of stage %18 there, the cube grouped (x·x)·x. -/
theorem edge_act (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (i : S640000x256.Idx) :
    val_main_v31 (F := Ideal) x0 x1 x2 x3 x4 x5 i = gelu (val_main_v18 (F := Ideal) x0 x1 x2 x3 x4 x5 i) := by
  rw [val_main_v31_apply, val_main_v30_apply, val_main_v29_apply, val_main_v28_apply, val_main_v27_apply,
    val_main_v26_apply, val_main_v25_apply, val_main_v24_apply, val_main_v23_apply, val_main_v22_apply,
    val_main_v21_apply, val_main_v20_apply, val_main_v19_apply, val_main_cst_apply, val_main_cst_3_apply,
    val_main_cst_4_apply, val_main_cst_5_apply]
  generalize val_main_v18 (F := Ideal) x0 x1 x2 x3 x4 x5 i = x
  rfl

/-! ## The nodes' perceptron -/

/-- The joined array %39 on its two column ranges: the node rows, the aggregated rows. -/
theorem joined_node (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (r : Fin 50000) (a : Fin 128) :
    val_main_v39 (F := Ideal) x0 x1 x2 x3 x4 x5 x6 x7 (ix2 r (⟨0 + a.val, by omega⟩ : Fin 256)) = x0 (ix2 r a) := by
  unfold val_main_v39
  exact join2_first _ _ _ r a
theorem joined_aggregate (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (r : Fin 50000) (a : Fin 128) :
    val_main_v39 (F := Ideal) x0 x1 x2 x3 x4 x5 x6 x7 (ix2 r (⟨128 + a.val, by omega⟩ : Fin 256))
      = val_main_v38 (F := Ideal) x0 x1 x2 x3 x4 x5 x6 x7 (ix2 r a) := by
  unfold val_main_v39
  exact join2_second _ _ _ r a

/-- The first layer before the activation, stage %43 at (r, k): the contraction of the joined row against the whole
    table is the two contractions of its ranges against the table's slabs, and the bias. -/
theorem node_pre (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S256x256, .f32⟩ : BufTy).Contents (Elt Ideal)) (x9 : (⟨S256, .f32⟩ : BufTy).Contents (Elt Ideal)) (r : Fin 50000) (k : Fin 256) :
    val_main_v43 (F := Ideal) x0 x1 x2 x3 x4 x5 x6 x7 x8 x9 (ix2 r k)
      = ((∑ a : Fin 128, acc2 x0 r a * slab x8 0 (by decide) a k)
          + (∑ a : Fin 128, acc2 (val_main_v38 (F := Ideal) x0 x1 x2 x3 x4 x5 x6 x7) r a * slab x8 128 (by decide) a k))
          + vec x9 k := by
  rw [val_main_v43_apply, val_main_v40_apply, val_main_v42_apply, val_main_v41_apply, bias42]
  refine congrArg₂ (· + ·) ?_ rfl
  refine (sum_256 _).trans ?_
  refine congrArg₂ (· + ·) ?_ ?_
  · refine Finset.sum_congr rfl fun a _ => ?_
    rw [lidx40, ridx40, joined_node]
    rfl
  · refine Finset.sum_congr rfl fun a _ => ?_
    rw [lidx40, ridx40, joined_aggregate]
    rfl

/-- The activation, stages %44 … %56 at an entry: GELU of stage %43 there, the cube grouped (x·x)·x. -/
theorem node_act (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S256x256, .f32⟩ : BufTy).Contents (Elt Ideal)) (x9 : (⟨S256, .f32⟩ : BufTy).Contents (Elt Ideal)) (i : S50000x256.Idx) :
    val_main_v56 (F := Ideal) x0 x1 x2 x3 x4 x5 x6 x7 x8 x9 i = gelu (val_main_v43 (F := Ideal) x0 x1 x2 x3 x4 x5 x6 x7 x8 x9 i) := by
  rw [val_main_v56_apply, val_main_v55_apply, val_main_v54_apply, val_main_v53_apply, val_main_v52_apply,
    val_main_v51_apply, val_main_v50_apply, val_main_v49_apply, val_main_v48_apply, val_main_v47_apply,
    val_main_v46_apply, val_main_v45_apply, val_main_v44_apply, val_main_cst_7_apply, val_main_cst_8_apply,
    val_main_cst_9_apply, val_main_cst_10_apply]
  generalize val_main_v43 (F := Ideal) x0 x1 x2 x3 x4 x5 x6 x7 x8 x9 i = x
  rfl

/-! ## The three stages as whole arrays -/

/-- The messages: stage %35. -/
theorem ref_msg (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) :
    val_main_v35 (F := Ideal) x0 x1 x2 x3 x4 x5 x6 x7
      = arr2 (edgeMsg (acc2 (val_main_v6 (F := Ideal) x0 x2)) (acc2 (val_main_v13 (F := Ideal) x0 x3)) (acc2 x1)
          (slab x4 0 (by decide)) (slab x4 128 (by decide)) (slab x4 256 (by decide)) (vec x5) (acc2 x6) (vec x7)) := by
  funext i
  obtain ⟨r, q, rfl⟩ : ∃ (r : Fin 640000) (q : Fin 128), i = ix2 r q := ⟨i 0, i 1, eq_ix2 i⟩
  rw [arr2_ix2, val_main_v35_apply, val_main_v32_apply, val_main_v34_apply, val_main_v33_apply, bias34]
  unfold edgeMsg out2
  refine congrArg₂ (· + ·) ?_ rfl
  refine Finset.sum_congr rfl fun k _ => ?_
  rw [lidx32, ridx32, edge_act, edge_pre]
  rfl

/-- The updated edges: stage %62, a result. -/
theorem ref_edges (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) :
    val_main_v62 (F := Ideal) x0 x1 x2 x3 x4 x5 x6 x7
      = arr2 (edgeOut (acc2 (val_main_v6 (F := Ideal) x0 x2)) (acc2 (val_main_v13 (F := Ideal) x0 x3)) (acc2 x1)
          (slab x4 0 (by decide)) (slab x4 128 (by decide)) (slab x4 256 (by decide)) (vec x5) (acc2 x6) (vec x7)) := by
  funext i
  obtain ⟨r, q, rfl⟩ : ∃ (r : Fin 640000) (q : Fin 128), i = ix2 r q := ⟨i 0, i 1, eq_ix2 i⟩
  rw [val_main_v62_apply, ref_msg, arr2_ix2, arr2_ix2]
  rfl

/-- The updated nodes: stage %61, a result; the aggregated array is the scatter-add stage %38 as it stands. -/
theorem ref_nodes (x0 : (⟨S50000x128, .f32⟩ : BufTy).Contents (Elt Ideal)) (x1 : (⟨S640000x128, .f32⟩ : BufTy).Contents (Elt Ideal)) (x2 x3 : (⟨S640000, .i32⟩ : BufTy).Contents (Elt Ideal)) (x4 : (⟨S384x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S256x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal)) :
    val_main_v61 (F := Ideal) x0 x1 x2 x3 x4 x5 x6 x7 x8 x9 x10 x11
      = arr2 (nodeOut (acc2 x0) (acc2 (val_main_v38 (F := Ideal) x0 x1 x2 x3 x4 x5 x6 x7))
          (slab x8 0 (by decide)) (slab x8 128 (by decide)) (vec x9) (acc2 x10) (vec x11)) := by
  funext i
  obtain ⟨r, q, rfl⟩ : ∃ (r : Fin 50000) (q : Fin 128), i = ix2 r q := ⟨i 0, i 1, eq_ix2 i⟩
  rw [arr2_ix2, val_main_v61_apply, val_main_v60_apply, val_main_v57_apply, val_main_v59_apply, val_main_v58_apply, bias59]
  unfold nodeOut out2
  refine congrArg₂ (· + ·) rfl ?_
  refine congrArg₂ (· + ·) ?_ rfl
  refine Finset.sum_congr rfl fun k _ => ?_
  rw [lidx57, ridx57, node_act, node_pre]
  rfl

end Cert.MP.RefValue

end
-- ==== Proof.lean ====
/-
  One message-passing layer of a graph network: a Pallas kernel of two regions against its plain jnp reference, at the
  ideal values.

  Both programs gather the senders' and the receivers' rows of the node table, pass (sender row, receiver row, edge
  row) through a two-layer perceptron with the tanh form of GELU to get each edge's message, add the message to the
  edge, sum the messages into their receivers' rows, and pass (node row, aggregated row) through a second perceptron
  whose result is added to the node. The kernel does the two perceptrons on the TensorCore, 4000 edges and 5000 nodes
  at a time, and leaves the gathers and the sum to the host, where the reference does everything.

  What differs, and why it does not matter on the extended reals: the kernel contracts each operand's 128 columns
  against its own slab of the first weight table and adds the products, where the reference joins the rows and
  contracts once (a sum over a joined range is the sum of the sums over its parts); the kernel narrows operands to
  bf16 before each product (a change of float format is the identity); the kernel cubes as x·(x·x), the reference as
  (x·x)·x (multiplication is commutative); the kernel works tile by tile (each row of a result depends on the same
  row of the row-tiled inputs only, and the tiles cover the rows). None of this needs the inputs to be finite.

  The two kernel frames are the generated ones; the reference's frame is its run with the results dropped; the
  idealization rewrote nothing, so there is nothing to preserve.
-/
import proofs.«163415_j16320875725329_2_alg».proof.Defs
import proofs.«163415_j16320875725329_2_alg».proof.Proof.Gen.Kernel
import proofs.«163415_j16320875725329_2_alg».proof.Proof.Gen.Kernel.Frame
import proofs.«163415_j16320875725329_2_alg».proof.Proof.Gen.KernelIdeal
import proofs.«163415_j16320875725329_2_alg».proof.Proof.Gen.KernelIdeal.Frame
import proofs.«163415_j16320875725329_2_alg».proof.Proof.Gen.ReferenceIdeal
import proofs.«163415_j16320875725329_2_alg».proof.Proof.RefRead
import proofs.«163415_j16320875725329_2_alg».proof.Proof.RefRun
import proofs.«163415_j16320875725329_2_alg».proof.Proof.Gen.Pre_finite_inputs
import proofs.«163415_j16320875725329_2_alg».proof.Proof.Rows
import proofs.«163415_j16320875725329_2_alg».proof.Proof.KernelRun
import proofs.«163415_j16320875725329_2_alg».proof.Proof.EdgeRegion
import proofs.«163415_j16320875725329_2_alg».proof.Proof.NodeRegion
import proofs.«163415_j16320875725329_2_alg».proof.Proof.EdgeInputs
import proofs.«163415_j16320875725329_2_alg».proof.Proof.NodeInputs
import proofs.«163415_j16320875725329_2_alg».proof.Proof.RefValue
import Idealize.ShloMosaic.Adequacy
import Idealize.ShloMosaic.Init

noncomputable section

open Idealize.ShloMosaic Idealize.ShloMosaic.TcCoe Idealize.SL.Sem

/-! ## The host operations both programs share are the same functions -/

namespace Cert.MP.Shared

open Cert.MP Cert.MP.EdgeInputs Cert.MP.NodeInputs Cert.ReferenceIdeal.ReadP

/-- The reference gathers the senders' rows exactly as the kernel's host does. -/
theorem senders_eq (x0 : (⟨Cert.ReferenceIdeal.S50000x128, .f32⟩ : BufTy).Contents (Elt Ideal))
    (x2 : (⟨Cert.ReferenceIdeal.S640000, .i32⟩ : BufTy).Contents (Elt Ideal)) :
    val_main_v6 (F := Ideal) x0 x2 = pick x0 x2 := rfl

/-- The reference gathers the receivers' rows exactly as the kernel's host does. -/
theorem receivers_eq (x0 : (⟨Cert.ReferenceIdeal.S50000x128, .f32⟩ : BufTy).Contents (Elt Ideal))
    (x3 : (⟨Cert.ReferenceIdeal.S640000, .i32⟩ : BufTy).Contents (Elt Ideal)) :
    val_main_v13 (F := Ideal) x0 x3 = pick x0 x3 := rfl

/-- The reference sums a message array into its receivers' rows exactly as the kernel's host does. -/
theorem aggregate_eq (x3 : (⟨Cert.ReferenceIdeal.S640000, .i32⟩ : BufTy).Contents (Elt Ideal))
    (u : (⟨Cert.ReferenceIdeal.S640000x128, .f32⟩ : BufTy).Contents (Elt Ideal)) :
    Host.scatterAdd (F := Ideal) (φ := .f32) Cert.ReferenceIdeal.scatter_S50000x128_S640000x1_S640000x128_1_0_0_1 (val_main_v36 (F := Ideal))
      (val_main_v37 (F := Ideal) x3) u = aggregate x3 u := rfl

end Cert.MP.Shared

/-! ## The layer's results as functions of the kernel's arguments -/

namespace Cert.MP.Results

open Cert.MP Cert.MP.EdgeInputs Cert.MP.NodeInputs Cert.KernelIdeal Cert.KernelIdeal.Gen

variable (m : (ℓ : Loc Cert.KernelIdeal.nD Cert.KernelIdeal.τ Cert.KernelIdeal.sig) → Buf (Elt Ideal) ℓ)

/-- The messages. -/
def msgs (c : Dev Cert.KernelIdeal.nD) : (⟨Cert.KernelIdeal.S640000x128, .f32⟩ : BufTy).Contents (Elt Ideal) :=
  arr2 (edgeMsg (acc2 (pick (m ((c.tc : Thread Cert.KernelIdeal.nD Cert.KernelIdeal.τ).loc Cert.KernelIdeal.main_arg0)) (m ((c.tc : Thread Cert.KernelIdeal.nD Cert.KernelIdeal.τ).loc Cert.KernelIdeal.main_arg2)))) (acc2 (pick (m ((c.tc : Thread Cert.KernelIdeal.nD Cert.KernelIdeal.τ).loc Cert.KernelIdeal.main_arg0)) (m ((c.tc : Thread Cert.KernelIdeal.nD Cert.KernelIdeal.τ).loc Cert.KernelIdeal.main_arg3)))) (acc2 (m ((c.tc : Thread Cert.KernelIdeal.nD Cert.KernelIdeal.τ).loc Cert.KernelIdeal.main_arg1)))
    (slab (m ((c.tc : Thread Cert.KernelIdeal.nD Cert.KernelIdeal.τ).loc Cert.KernelIdeal.main_arg4)) 0 (by decide)) (slab (m ((c.tc : Thread Cert.KernelIdeal.nD Cert.KernelIdeal.τ).loc Cert.KernelIdeal.main_arg4)) 128 (by decide)) (slab (m ((c.tc : Thread Cert.KernelIdeal.nD Cert.KernelIdeal.τ).loc Cert.KernelIdeal.main_arg4)) 256 (by decide))
    (vec (m ((c.tc : Thread Cert.KernelIdeal.nD Cert.KernelIdeal.τ).loc Cert.KernelIdeal.main_arg5))) (acc2 (m ((c.tc : Thread Cert.KernelIdeal.nD Cert.KernelIdeal.τ).loc Cert.KernelIdeal.main_arg6))) (vec (m ((c.tc : Thread Cert.KernelIdeal.nD Cert.KernelIdeal.τ).loc Cert.KernelIdeal.main_arg7))))

/-- The updated edges. -/
def edges (c : Dev Cert.KernelIdeal.nD) : (⟨Cert.KernelIdeal.S640000x128, .f32⟩ : BufTy).Contents (Elt Ideal) :=
  arr2 (edgeOut (acc2 (pick (m ((c.tc : Thread Cert.KernelIdeal.nD Cert.KernelIdeal.τ).loc Cert.KernelIdeal.main_arg0)) (m ((c.tc : Thread Cert.KernelIdeal.nD Cert.KernelIdeal.τ).loc Cert.KernelIdeal.main_arg2)))) (acc2 (pick (m ((c.tc : Thread Cert.KernelIdeal.nD Cert.KernelIdeal.τ).loc Cert.KernelIdeal.main_arg0)) (m ((c.tc : Thread Cert.KernelIdeal.nD Cert.KernelIdeal.τ).loc Cert.KernelIdeal.main_arg3)))) (acc2 (m ((c.tc : Thread Cert.KernelIdeal.nD Cert.KernelIdeal.τ).loc Cert.KernelIdeal.main_arg1)))
    (slab (m ((c.tc : Thread Cert.KernelIdeal.nD Cert.KernelIdeal.τ).loc Cert.KernelIdeal.main_arg4)) 0 (by decide)) (slab (m ((c.tc : Thread Cert.KernelIdeal.nD Cert.KernelIdeal.τ).loc Cert.KernelIdeal.main_arg4)) 128 (by decide)) (slab (m ((c.tc : Thread Cert.KernelIdeal.nD Cert.KernelIdeal.τ).loc Cert.KernelIdeal.main_arg4)) 256 (by decide))
    (vec (m ((c.tc : Thread Cert.KernelIdeal.nD Cert.KernelIdeal.τ).loc Cert.KernelIdeal.main_arg5))) (acc2 (m ((c.tc : Thread Cert.KernelIdeal.nD Cert.KernelIdeal.τ).loc Cert.KernelIdeal.main_arg6))) (vec (m ((c.tc : Thread Cert.KernelIdeal.nD Cert.KernelIdeal.τ).loc Cert.KernelIdeal.main_arg7))))

/-- The updated nodes. -/
def nodes (c : Dev Cert.KernelIdeal.nD) : (⟨Cert.KernelIdeal.S50000x128, .f32⟩ : BufTy).Contents (Elt Ideal) :=
  arr2 (nodeOut (acc2 (m ((c.tc : Thread Cert.KernelIdeal.nD Cert.KernelIdeal.τ).loc Cert.KernelIdeal.main_arg0))) (acc2 (aggregate (m ((c.tc : Thread Cert.KernelIdeal.nD Cert.KernelIdeal.τ).loc Cert.KernelIdeal.main_arg3)) (msgs m c)))
    (slab (m ((c.tc : Thread Cert.KernelIdeal.nD Cert.KernelIdeal.τ).loc Cert.KernelIdeal.main_arg8)) 0 (by decide)) (slab (m ((c.tc : Thread Cert.KernelIdeal.nD Cert.KernelIdeal.τ).loc Cert.KernelIdeal.main_arg8)) 128 (by decide)) (vec (m ((c.tc : Thread Cert.KernelIdeal.nD Cert.KernelIdeal.τ).loc Cert.KernelIdeal.main_arg9))) (acc2 (m ((c.tc : Thread Cert.KernelIdeal.nD Cert.KernelIdeal.τ).loc Cert.KernelIdeal.main_arg10))) (vec (m ((c.tc : Thread Cert.KernelIdeal.nD Cert.KernelIdeal.τ).loc Cert.KernelIdeal.main_arg11))))

variable (ρ : Dev Cert.KernelIdeal.nD → PrngReg)

/-- The edge region leaves the messages in its first output array. -/
theorem kernel_msgs (c : Dev Cert.KernelIdeal.nD) : (dat0 (F := Ideal) (V1 m ρ) c).arrAt 9 cfg0.N = msgs m c := by
  rw [Cert.MP.EdgeRegion.msg_array (V1 m ρ) c, in0_senders m ρ c, in0_receivers m ρ c, in0_edges m ρ c, in0_Ws m ρ c,
    in0_Wr m ρ c, in0_We m ρ c, in0_b1 m ρ c, in0_W2 m ρ c, in0_b2 m ρ c]
  rfl

/-- The kernel's second result buffer ends at the updated edges. -/
theorem kernel_edges (c : Dev Cert.KernelIdeal.nD) : W4 m ρ c (Proc.devRef .tc main_v30_1) = edges m c := by
  rw [Cert.MP.KernelRun.result_edges m ρ c, Cert.MP.EdgeRegion.out_array (V1 m ρ) c, in0_senders m ρ c, in0_receivers m ρ c,
    in0_edges m ρ c, in0_Ws m ρ c, in0_Wr m ρ c, in0_We m ρ c, in0_b1 m ρ c, in0_W2 m ρ c, in0_b2 m ρ c]
  rfl

/-- The kernel's first result buffer ends at the updated nodes. -/
theorem kernel_nodes (c : Dev Cert.KernelIdeal.nD) : W4 m ρ c (Proc.devRef .tc main_v34) = nodes m c := by
  rw [Cert.MP.KernelRun.result_nodes m ρ c, Cert.MP.NodeRegion.node_array (V3 m ρ) c, in1_nodes m ρ c, in1_agg m ρ c,
    kernel_msgs m ρ c, in1_Wn m ρ c, in1_Wg m ρ c, in1_b1 m ρ c, in1_W2 m ρ c, in1_b2 m ρ c]
  rfl

end Cert.MP.Results

/-! ## The claims -/

namespace Cert.Proof

open Cert.MP Cert.MP.Results

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2.2) (Cert.MP.RefRun.run m ρ)

/-- Run from memories that agree on the arguments, both programs end with the updated nodes and the updated edges:
    the same two functions of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => nodes m c, fun c => edges m c, ?_, ?_⟩
  · exact (θ_run Cert.KernelIdeal.defs _ _).mono
      (fun r h c => ⟨(h c).1.trans (kernel_nodes m ρ c), (h c).2.1.trans (kernel_edges m ρ c), (h c).2.2⟩)
      (Cert.MP.KernelRun.run_named (F := Ideal) m ρ)
  · refine (θ_run Cert.ReferenceIdeal.defs _ _).mono
      (fun r h c => ⟨(h c).1.trans ?_, (h c).2.1.trans ?_, (h c).2.2⟩)
      (Cert.MP.RefRun.run m' ρ')
    · obtain ⟨a0, a1, a2, a3, a4, a5, a6, a7, a8, a9, a10, a11⟩ := hagree c
      rw [Cert.MP.RefValue.ref_nodes, a0, a1, a2, a3, a4, a5, a6, a7, a8, a9, a10, a11]
      unfold Cert.ReferenceIdeal.ReadP.val_main_v38
      rw [Cert.MP.Shared.aggregate_eq, Cert.MP.RefValue.ref_msg, Cert.MP.Shared.senders_eq, Cert.MP.Shared.receivers_eq]
      rfl
    · obtain ⟨a0, a1, a2, a3, a4, a5, a6, a7, -⟩ := hagree c
      rw [Cert.MP.RefValue.ref_edges, a0, a1, a2, a3, a4, a5, a6, a7,
        Cert.MP.Shared.senders_eq, Cert.MP.Shared.receivers_eq]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
